-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v15_0)) (v3 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v15_0) = v2 c
          ∧ r.2.mem ((c.tc : Thread Cert.KernelIdeal.nD Cert.KernelIdeal.τ).loc Cert.KernelIdeal.main_v15_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x2048 : Shape := ⟨3, ![4, 1024, 2048]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x2048 : S_.BroadcastsInDim S4x1024x2048 (![] : Fin 0 → Fin S4x1024x2048.rank)
  reducesTo_S4x1024x2048_S_d0_1_2 : S4x1024x2048.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_arg8 : FVec F S4x1024x2048 .f32) (main_arg9 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4x1024x2048 .f32 := Host.absf main_arg8
  let main_cst_14 : FVec F S_ .f32 := constant S_ .f32 0x7F800000#32
  let main_v40 : FVec F S4x1024x2048 .f32 := broadcastInDim S4x1024x2048 ![] bcast_S_S4x1024x2048 main_cst_14
  let main_v41 : IVec S4x1024x2048 1 := cmpf .olt main_v39 main_v40
  let main_c_15 : IVec S_ 1 := constantI S_ 1 1#1
  let main_v42 : IVec S_ 1 := (fun x v => Host.reduce IntOp.andi x v reducesTo_S4x1024x2048_S_d0_1_2 h_S_) main_v41 main_c_15
  let main_v43 : IVec S_ 1 := andi main_v38 main_v42
  let main_v44 : FVec F S4x1024 .f32 := Host.absf main_arg9
  let main_cst_16 : FVec F S_ .f32 := constant S_ .f32 0x7F800000#32
  let main_v45 : FVec F S4x1024 .f32 := broadcastInDim S4x1024 ![] bcast_S_S4x1024 main_cst_16
  let main_v46 : IVec S4x1024 1 := cmpf .olt main_v44 main_v45
  let main_c_17 : IVec S_ 1 := constantI S_ 1 1#1
  let main_v47 : IVec S_ 1 := (fun x v => Host.reduce IntOp.andi x v reducesTo_S4x1024_S_d0_1 h_S_) main_v46 main_c_17
  let main_v48 : IVec S_ 1 := andi main_v43 main_v47
  main_v48

def fn_part1 {F : FTy → Type} [FloatOps F] (main_arg4 : FVec F S4096x1024 .f32) (main_arg5 : FVec F S4096x1024 .f32) (main_arg6 : FVec F S4x1024x2048 .f32) (main_arg7 : FVec F S4x1024 .f32) (main_arg8 : FVec F S4x1024x2048 .f32) (main_arg9 : FVec F S4x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x1024x2048 .f32 := Host.absf main_arg6
  let main_cst_10 : FVec F S_ .f32 := constant S_ .f32 0x7F800000#32
  let main_v30 : FVec F S4x1024x2048 .f32 := broadcastInDim S4x1024x2048 ![] bcast_S_S4x1024x2048 main_cst_10
  let main_v31 : IVec S4x1024x2048 1 := cmpf .olt main_v29 main_v30
  let main_c_11 : IVec S_ 1 := constantI S_ 1 1#1
  let main_v32 : IVec S_ 1 := (fun x v => Host.reduce IntOp.andi x v reducesTo_S4x1024x2048_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) (main_arg6 : FVec F S4x1024x2048 .f32) (main_arg7 : FVec F S4x1024 .f32) (main_arg8 : FVec F S4x1024x2048 .f32) (main_arg9 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4x1024x2048 : Shape := ⟨3, ![4, 1024, 2048]⟩
abbrev S4x1024 : Shape := ⟨2, ![4, 1024]⟩
abbrev S4x1024x1024 : Shape := ⟨3, ![4, 1024, 1024]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 28
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4x1024x2048, .f32⟩
  | .hbm, ⟨7, _⟩ => ⟨S4x1024, .f32⟩
  | .hbm, ⟨8, _⟩ => ⟨S4x1024x2048, .f32⟩
  | .hbm, ⟨9, _⟩ => ⟨S4x1024, .f32⟩
  | .hbm, ⟨10, _⟩ => ⟨S4x1024x1024, .f32⟩
  | .hbm, ⟨11, _⟩ => ⟨S4096x1024, .f32⟩
  | .hbm, ⟨12, _⟩ => ⟨S4096x1024, .bf16⟩
  | .hbm, ⟨13, _⟩ => ⟨S4x1024x1024, .f32⟩
  | .hbm, ⟨14, _⟩ => ⟨S4096x1024, .f32⟩
  | .hbm, ⟨15, _⟩ => ⟨S4096x1024, .bf16⟩
  | .hbm, ⟨16, _⟩ => ⟨S4x1024x1024, .f32⟩
  | .hbm, ⟨17, _⟩ => ⟨S4096x1024, .f32⟩
  | .hbm, ⟨18, _⟩ => ⟨S4096x1024, .bf16⟩
  | .hbm, ⟨19, _⟩ => ⟨S4x1024x1024, .f32⟩
  | .hbm, ⟨20, _⟩ => ⟨S4096x1024, .f32⟩
  | .hbm, ⟨21, _⟩ => ⟨S4096x1024, .bf16⟩
  | .hbm, ⟨22, _⟩ => ⟨S1x4096, .f32⟩
  | .hbm, ⟨23, _⟩ => ⟨S1x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S4096x1024, .bf16⟩
  | .local _ .vmem, ⟨20, _⟩ => ⟨S4096x1024, .bf16⟩
  | .local _ .vmem, ⟨21, _⟩ => ⟨S1x4096, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S4x1024x2048_S4x1024x1024_0_0_0 : S4x1024x2048.Slices ![0, 0, 0] S4x1024x1024
  shapeCasts_S4x1024x1024_S4096x1024 : S4x1024x1024.ShapeCasts S4096x1024
  bitsLt_bf16_f32 : FTy.bits .bf16 < FTy.bits .f32
  slices_S4x1024x2048_S4x1024x1024_0_0_1024 : S4x1024x2048.Slices ![0, 0, 1024] S4x1024x1024
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x1024.size a
  hwx1_2 : ∀ i : grid1.Coords, EltTy.bits .f32 = 32 ∨ (Rect.block (s := S4096x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x1024.size a ≤ S4096x1024.size a
  hwx1_4 : ∀ i : grid1.Coords, EltTy.bits .bf16 = 32 ∨ (Rect.block (s := S4096x1024) S4096x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x1024.size a
  hwx1_6 : ∀ i : grid1.Coords, EltTy.bits .f32 = 32 ∨ (Rect.block (s := S4096x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S4096x1024.size a
  hwx1_7 : ∀ i : grid1.Coords, EltTy.bits .f32 = 32 ∨ (Rect.block (s := S4096x1024) S256x1024.size (cc1_transform_7 i) (hinb1_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4096x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4x1024x2048 : Shape := ⟨3, ![4, 1024, 2048]⟩
abbrev S4x1024 : Shape := ⟨2, ![4, 1024]⟩
abbrev S4096x2048 : Shape := ⟨2, ![4096, 2048]⟩
abbrev S4096x4x1024 : Shape := ⟨3, ![4096, 4, 1024]⟩
abbrev S1x4x1024 : Shape := ⟨3, ![1, 4, 1024]⟩
abbrev S4096x1x1024 : Shape := ⟨3, ![4096, 1, 1024]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4x1024x2048, .f32⟩
  | .hbm, ⟨7, _⟩ => ⟨S4x1024, .f32⟩
  | .hbm, ⟨8, _⟩ => ⟨S4x1024x2048, .f32⟩
  | .hbm, ⟨9, _⟩ => ⟨S4x1024, .f32⟩
  | .hbm, ⟨10, _⟩ => ⟨S4096x2048, .f32⟩
  | .hbm, ⟨11, _⟩ => ⟨S4096x4x1024, .f32⟩
  | .hbm, ⟨12, _⟩ => ⟨S1x4x1024, .f32⟩
  | .hbm, ⟨13, _⟩ => ⟨S4096x4x1024, .f32⟩
  | .hbm, ⟨14, _⟩ => ⟨S4096x4x1024, .f32⟩
  | .hbm, ⟨15, _⟩ => ⟨S4096x1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2048, .f32⟩
  | .hbm, ⟨54, _⟩ => ⟨S4096x4x1024, .f32⟩
  | .hbm, ⟨55, _⟩ => ⟨S1x4x1024, .f32⟩
  | .hbm, ⟨56, _⟩ => ⟨S4096x4x1024, .f32⟩
  | .hbm, ⟨57, _⟩ => ⟨S4096x4x1024, .f32⟩
  | .hbm, ⟨58, _⟩ => ⟨S4096x1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  dot_S4096x2048_S4x1024x2048_S4096x4x1024_1_2_0_01_n_n_wf : DotDims.WF S4096x2048 S4x1024x2048 S4096x4x1024 [1] [2] [0] [0, 1] [] []

variable [Facts₀]

def dot_S4096x2048_S4x1024x2048_S4096x4x1024_1_2_0_01_n_n : DotDims S4096x2048 S4x1024x2048 S4096x4x1024 where
  lhsContracting := [1]
  rhsContracting := [2]
  lhsNonContracting := [0]
  rhsNonContracting := [0, 1]
  lhsBatch := []
  rhsBatch := []
  wf := dot_S4096x2048_S4x1024x2048_S4096x4x1024_1_2_0_01_n_n_wf

class Facts : Prop extends Facts₀ where

variable [Facts]
-- ==== Proof.KernelRun.lean ====
/-
  The idealized kernel's run with its four result buffers named.

  @main is a stretch of host operations and two pallas_calls. Its every weakly fair execution terminates, nothing
  faulting, with each unscoped buffer of a core holding the last boundary's contents: the launch memory pushed through
  the host stretch, then each call's arrays replaced by what its grid leaves. So the four result buffers end at those
  contents, and the ten argument buffers, which nothing writes, end as launched.
-/
import proofs.«113173_j23639499997827_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the four results end at the last boundary's
    contents and the arguments as launched. -/
theorem results : θ_run defs (onTc (τ := τ) (main (F := F))) ⟨m, fun _ => 0, ρ⟩ (fun r => ∀ c : Dev nD,
      r.2.mem ((c.tc : Thread nD τ).loc main_v14_0) = W3 m ρ c (Proc.devRef .tc main_v14_0)
      ∧ r.2.mem ((c.tc : Thread nD τ).loc main_v14_1) = W3 m ρ c (Proc.devRef .tc main_v14_1)
      ∧ r.2.mem ((c.tc : Thread nD τ).loc main_v15_0) = W3 m ρ c (Proc.devRef .tc main_v15_0)
      ∧ r.2.mem ((c.tc : Thread nD τ).loc main_v15_1) = W3 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14_0 (by decide)),
       h c _ (mem_uc main_v14_1 (by decide)),
       h c _ (mem_uc main_v15_0 (by decide)),
       h c _ (mem_uc main_v15_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Run

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«113173_j23639499997827_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.CellSpec.lean ====
/-
  One step of an LSTM cell on the extended reals, as a function of the argument arrays, entry by entry.

  For a batch row r and a hidden unit j, each of the four gates g has the pre-activation
      a_g(r, j) = (∑ k < 1024, x(r, k) · W(g, j, k)  +  ∑ k < 1024, h(r, k) · W(g, j, 1024 + k))  +  b(g, j):
  the input row against the first half of the weight row, the hidden row against the second half, then the bias.
  With σ the logistic function, the new cell state and hidden state are
      c'(r, j) = σ(a_0) · c(r, j) + σ(a_1) · tanh(a_3),        h'(r, j) = σ(a_2) · tanh(c'(r, j)).
  The pieces are stated over ROW ACCESSORS (functions of the contraction position k), so that the same three
  definitions describe a 256-row block of the batch and the whole 4096-row batch.
-/
import Idealize.ShloMosaic.PureOps.Ideal
import Idealize.ShloMosaic.Lib.ValueIdx

noncomputable section

namespace Cert.Cell

open Idealize.ShloMosaic Idealize.ShloMosaic.ValueIdx

/-- A gate's pre-activation from the input row, the hidden row, the two halves of the weight row and the bias. -/
def preact (xr hr wx wh : Fin 1024 → EReal) (bias : EReal) : EReal :=
  (∑ k : Fin 1024, xr k * wx k + ∑ k : Fin 1024, hr k * wh k) + bias

/-- The new cell state from the forget, input and candidate pre-activations and the old cell state. -/
def cellOf (a0 a1 a3 cprev : EReal) : EReal :=
  Ideal.logistic a0 * cprev + Ideal.logistic a1 * Ideal.tanh a3

/-- The new hidden state from the output pre-activation and the new cell state. -/
def hiddenOf (a2 cnew : EReal) : EReal :=
  Ideal.logistic a2 * Ideal.tanh cnew

abbrev SBatch : Shape := ⟨2, ![4096, 1024]⟩
abbrev SWeight : Shape := ⟨3, ![4, 1024, 2048]⟩
abbrev SBias : Shape := ⟨2, ![4, 1024]⟩

/-- Gate g's pre-activation at batch row r, hidden unit j, from the argument arrays. -/
def gate (x h : FVec Ideal SBatch .f32) (W : FVec Ideal SWeight .f32) (b : FVec Ideal SBias .f32)
    (g : Fin 4) (r : Fin 4096) (j : Fin 1024) : EReal :=
  preact (fun k => x (ix2 r k)) (fun k => h (ix2 r k))
    (fun k => W (ix3 g j ⟨k.val, by omega⟩)) (fun k => W (ix3 g j ⟨1024 + k.val, by omega⟩)) (b (ix2 g j))

/-- The new cell state, as an array. -/
def newCell (x h c : FVec Ideal SBatch .f32) (W : FVec Ideal SWeight .f32) (b : FVec Ideal SBias .f32) :
    FVec Ideal SBatch .f32 := fun i =>
  cellOf (gate x h W b 0 (i 0) (i 1)) (gate x h W b 1 (i 0) (i 1)) (gate x h W b 3 (i 0) (i 1)) (c i)

/-- The new hidden state, as an array. -/
def newHidden (x h c : FVec Ideal SBatch .f32) (W : FVec Ideal SWeight .f32) (b : FVec Ideal SBias .f32) :
    FVec Ideal SBatch .f32 := fun i =>
  hiddenOf (gate x h W b 2 (i 0) (i 1)) (newCell x h c W b i)

end Cert.Cell

end
-- ==== Proof.BodyValue.lean ====
/-
  What one grid point's body stores, entry by entry, on the extended reals.

  The body loads a 256-row block of the input x0, of the hidden state x1 and of the cell state x2, the two
  [4096, 1024] weight matrices x3 (input part) and x4 (hidden part) whole, and the [1, 4096] bias x5. It forms
      pre(p, n) = (∑ k, x0(p, k) · x3(n, k) + ∑ k, x1(p, k) · x4(n, k)) + x5(0, n)        (p < 256, n < 4096)
  — each matrix product contracts the block's columns against the ROWS of a weight matrix, the transpose the body
  takes first being undone by reading the transposed matrix at the swapped index; a change of float format is the
  identity here — and splits the 4096 columns into four gates of 1024: gate g of hidden unit q is column g·1024 + q.
  The value stored to the cell-state output is cellOf of gates 0, 1, 3 and the old cell state; the value stored to the
  hidden-state output is hiddenOf of gate 2 and that new cell state.
-/
import proofs.«113173_j23639499997827_2_alg».proof.Proof.Gen.KernelIdeal.Skeleton
import proofs.«113173_j23639499997827_2_alg».proof.Proof.LibMatmul2D
import proofs.«113173_j23639499997827_2_alg».proof.Proof.CellSpec
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.Cell

/-- The transposed weight matrix at (k, n) is the weight matrix at (n, k). -/
theorem weightT_apply (w : FVec Ideal S4096x1024 .bf16) (hc : S4096x1024.ShapeCasts S4096x1024)
    (ht : S4096x1024.Transposes [1, 0] S1024x4096) (k : Fin 1024) (n : Fin 4096) :
    transpose S1024x4096 [1, 0] (shapeCast S4096x1024 w hc) ht (ix2 k n) = w (ix2 n k) := by
  rw [shapeCast_self]
  exact transpose_apply [1, 0] w ht (ix2 k n) (ix2 n k) (fun b => match b with | ⟨0, _⟩ => rfl | ⟨1, _⟩ => rfl)

/-- A block's product with a transposed weight matrix, at (p, n): the block's row p against the matrix's row n. -/
theorem product_apply (a : FVec Ideal S256x1024 .bf16) (w : FVec Ideal S4096x1024 .bf16)
    (hc : S4096x1024.ShapeCasts S4096x1024) (ht : S4096x1024.Transposes [1, 0] S1024x4096) (p : Fin 256) (n : Fin 4096) :
    FloatOps.matmul dot_S256x1024_S1024x4096_S256x4096_1_0_0_1_n_n none a
        (transpose S1024x4096 [1, 0] (shapeCast S4096x1024 w hc) ht) (constant S256x4096 .f32 0x00000000#32) (ix2 p n)
      = ∑ k : Fin 1024, a (ix2 p k) * w (ix2 n k) := by
  refine (Cert.LibMatmul2D.rows_cols dot_S256x1024_S1024x4096_S256x4096_1_0_0_1_n_n.wf none a _ p n).trans ?_
  exact Finset.sum_congr rfl fun k _ => by rw [weightT_apply]

/-- The bias row broadcast over the block's rows, at (p, n): the bias at (0, n). -/
theorem bias_apply (b : FVec Ideal S1x4096 .f32) (hc : S1x4096.ShapeCasts S1x4096) (hb : S1x4096.Broadcasts S256x4096)
    (p : Fin 256) (n : Fin 4096) :
    broadcastTo S256x4096 (shapeCast S1x4096 b hc) hb (ix2 p n) = b (ix2 (0 : Fin 1) n) := by
  rw [shapeCast_self]
  exact broadcastTo_apply b hb (ix2 p n) (ix2 (0 : Fin 1) n) (fun a => match a with
    | ⟨0, _⟩ => by show (0 : Nat) = if (1 : Nat) = 1 then 0 else _; rw [if_pos rfl]
    | ⟨1, _⟩ => by show n.val = if (4096 : Nat) = 1 then 0 else n.val; rw [if_neg (by decide)])

/-- The four gates' pre-activations, all 4096 columns of them, at (p, n). -/
theorem preacts_apply (x0 x1 : Vec Ideal S256x1024 .f32) (x3 x4 : Vec Ideal S4096x1024 .bf16) (x5 : Vec Ideal S1x4096 .f32)
    (p : Fin 256) (n : Fin 4096) :
    k0_pay1 (F := Ideal) x0 x1 x3 x4 x5 (ix2 p n)
      = preact (fun k => x0 (ix2 p k)) (fun k => x1 (ix2 p k)) (fun k => x3 (ix2 n k)) (fun k => x4 (ix2 n k))
          (x5 (ix2 (0 : Fin 1) n)) := by
  unfold k0_pay1 preact
  refine congrArg₂ (· + ·) (congrArg₂ (· + ·) ?_ ?_) ?_
  · exact product_apply _ x3 _ _ p n
  · exact product_apply _ x4 _ _ p n
  · exact bias_apply x5 _ _ p n

/-- A 1024-column gate cut out of the 4096 columns, at (p, q): column off + q. -/
theorem gate_slice_apply (v : FVec Ideal S256x4096 .f32) (off : Nat) (hoff : off + 1024 ≤ 4096)
    (hs : S256x4096.Slices ![0, off] S256x1024) (p : Fin 256) (q : Fin 1024) :
    extractStridedSlice S256x1024 ![0, off] v hs (ix2 p q) = v (ix2 p (⟨off + q.val, by omega⟩ : Fin 4096)) :=
  extractStridedSlice_apply ![0, off] v hs (ix2 p q) (ix2 p (⟨off + q.val, by omega⟩ : Fin 4096)) (fun a => match a with
    | ⟨0, _⟩ => by show p.val = 0 + p.val; omega
    | ⟨1, _⟩ => rfl)

/-- Gate g of hidden unit q for the block's row p. -/
def blockGate (x0 x1 : Vec Ideal S256x1024 .f32) (x3 x4 : Vec Ideal S4096x1024 .bf16) (x5 : Vec Ideal S1x4096 .f32)
    (off : Nat) (hoff : off + 1024 ≤ 4096) (p : Fin 256) (q : Fin 1024) : EReal :=
  preact (fun k => x0 (ix2 p k)) (fun k => x1 (ix2 p k))
    (fun k => x3 (ix2 (⟨off + q.val, by omega⟩ : Fin 4096) k)) (fun k => x4 (ix2 (⟨off + q.val, by omega⟩ : Fin 4096) k))
    (x5 (ix2 (0 : Fin 1) (⟨off + q.val, by omega⟩ : Fin 4096)))

/-- The value stored to the cell-state output, at (p, q). -/
theorem cell_store_apply (x0 x1 x2 : Vec Ideal S256x1024 .f32) (x3 x4 : Vec Ideal S4096x1024 .bf16) (x5 : Vec Ideal S1x4096 .f32)
    (p : Fin 256) (q : Fin 1024) :
    k0_pay2 (F := Ideal) x0 x1 x3 x4 x5 x2 (ix2 p q)
      = cellOf (blockGate x0 x1 x3 x4 x5 0 (by omega) p q) (blockGate x0 x1 x3 x4 x5 1024 (by omega) p q)
          (blockGate x0 x1 x3 x4 x5 3072 (by omega) p q) (x2 (ix2 p q)) := by
  unfold k0_pay2 cellOf blockGate
  refine congrArg₂ (· + ·) (congrArg₂ (· * ·) (congrArg Ideal.logistic ?_) rfl)
    (congrArg₂ (· * ·) (congrArg Ideal.logistic ?_) (congrArg Ideal.tanh ?_))
  · exact (gate_slice_apply _ 0 (by omega) _ p q).trans (preacts_apply x0 x1 x3 x4 x5 p _)
  · exact (gate_slice_apply _ 1024 (by omega) _ p q).trans (preacts_apply x0 x1 x3 x4 x5 p _)
  · exact (gate_slice_apply _ 3072 (by omega) _ p q).trans (preacts_apply x0 x1 x3 x4 x5 p _)

/-- The value stored to the hidden-state output, at (p, q). -/
theorem hidden_store_apply (x0 x1 x2 : Vec Ideal S256x1024 .f32) (x3 x4 : Vec Ideal S4096x1024 .bf16) (x5 : Vec Ideal S1x4096 .f32)
    (p : Fin 256) (q : Fin 1024) :
    k0_pay3 (F := Ideal) x0 x1 x3 x4 x5 x2 (ix2 p q)
      = hiddenOf (blockGate x0 x1 x3 x4 x5 2048 (by omega) p q)
          (cellOf (blockGate x0 x1 x3 x4 x5 0 (by omega) p q) (blockGate x0 x1 x3 x4 x5 1024 (by omega) p q)
            (blockGate x0 x1 x3 x4 x5 3072 (by omega) p q) (x2 (ix2 p q))) := by
  unfold k0_pay3 hiddenOf
  refine congrArg₂ (· * ·) (congrArg Ideal.logistic ?_) (congrArg Ideal.tanh ?_)
  · exact (gate_slice_apply _ 2048 (by omega) _ p q).trans (preacts_apply x0 x1 x3 x4 x5 p _)
  · exact cell_store_apply x0 x1 x2 x3 x4 x5 p q

/-- The second pallas_call runs the same body: its stored values are the first's. -/
theorem second_cell_store : @k1_pay2 Ideal _ = @k0_pay2 Ideal _ := rfl
theorem second_hidden_store : @k1_pay3 Ideal _ = @k0_pay3 Ideal _ := rfl

end Cert.KernelIdeal.Body

end
-- ==== Proof.BlockArray.lean ====
/-
  One pallas_call's two result arrays as functions of the six arrays it is handed, and the fact that a grid point's
  block of stored values is that function read on the point's rows.

  The call is handed the input X, the hidden state H and the cell state C, each [4096, 1024]; the input part WX and the
  hidden part WH of the weights, each [4096, 1024] with row g·1024 + q holding gate g of hidden unit q; and the bias
  row B, [1, 4096], laid out the same way. Grid point T works on rows T·256 … T·256 + 255: its blocks x0, x1, x2 of X, H, C
  are those rows, and it sees WX, WH, B whole. So what it stores at (p, q) of its block is the call's function at
  (T·256 + p, q): the stored value depends on X and H only through row T·256 + p, on C only at that entry.
-/
import proofs.«113173_j23639499997827_2_alg».proof.Proof.BodyValue

noncomputable section

namespace Cert.KernelIdeal.Body

open Idealize.ShloMosaic Idealize.ShloMosaic.ValueIdx Cert.KernelIdeal Cert.KernelIdeal.Gen Cert.Cell

/-- The pre-activation in column off + q of row r, from the arrays the call is handed. -/
def callGate (X H : FVec Ideal S4096x1024 .f32) (WX WH : FVec Ideal S4096x1024 .bf16) (B : FVec Ideal S1x4096 .f32)
    (off : Nat) (hoff : off + 1024 ≤ 4096) (r : Fin 4096) (q : Fin 1024) : EReal :=
  preact (fun k => X (ix2 r k)) (fun k => H (ix2 r k))
    (fun k => WX (ix2 (⟨off + q.val, by omega⟩ : Fin 4096) k)) (fun k => WH (ix2 (⟨off + q.val, by omega⟩ : Fin 4096) k))
    (B (ix2 (0 : Fin 1) (⟨off + q.val, by omega⟩ : Fin 4096)))

/-- The call's cell-state result. -/
def callCell (X H C : FVec Ideal S4096x1024 .f32) (WX WH : FVec Ideal S4096x1024 .bf16) (B : FVec Ideal S1x4096 .f32) :
    FVec Ideal S4096x1024 .f32 := fun i =>
  cellOf (callGate X H WX WH B 0 (by omega) (i 0) (i 1)) (callGate X H WX WH B 1024 (by omega) (i 0) (i 1))
    (callGate X H WX WH B 3072 (by omega) (i 0) (i 1)) (C i)

/-- The call's hidden-state result. -/
def callHidden (X H C : FVec Ideal S4096x1024 .f32) (WX WH : FVec Ideal S4096x1024 .bf16) (B : FVec Ideal S1x4096 .f32) :
    FVec Ideal S4096x1024 .f32 := fun i =>
  hiddenOf (callGate X H WX WH B 2048 (by omega) (i 0) (i 1)) (callCell X H C WX WH B i)

section Block

variable (X H C : FVec Ideal S4096x1024 .f32) (WX WH : FVec Ideal S4096x1024 .bf16) (B : FVec Ideal S1x4096 .f32)
  (x0 x1 x2 : Vec Ideal S256x1024 .f32) (x3 x4 : Vec Ideal S4096x1024 .bf16) (x5 : Vec Ideal S1x4096 .f32)
  (T : Nat) (hT : T * 256 + 256 ≤ 4096)
  (h0 : ∀ (p : Fin 256) (k : Fin 1024), x0 (ix2 p k) = X (ix2 (⟨T * 256 + p.val, by omega⟩ : Fin 4096) k))
  (h1 : ∀ (p : Fin 256) (k : Fin 1024), x1 (ix2 p k) = H (ix2 (⟨T * 256 + p.val, by omega⟩ : Fin 4096) k))
  (h2 : ∀ (p : Fin 256) (q : Fin 1024), x2 (ix2 p q) = C (ix2 (⟨T * 256 + p.val, by omega⟩ : Fin 4096) q))
  (h3 : ∀ (n : Fin 4096) (k : Fin 1024), x3 (ix2 n k) = WX (ix2 n k))
  (h4 : ∀ (n : Fin 4096) (k : Fin 1024), x4 (ix2 n k) = WH (ix2 n k))
  (h5 : ∀ n : Fin 4096, x5 (ix2 (0 : Fin 1) n) = B (ix2 (0 : Fin 1) n))

include h0 h1 h3 h4 h5 in
/-- A block's gate is the call's gate on the block's row of the batch. -/
theorem block_gate (off : Nat) (hoff : off + 1024 ≤ 4096) (p : Fin 256) (q : Fin 1024) :
    blockGate x0 x1 x3 x4 x5 off hoff p q = callGate X H WX WH B off hoff (⟨T * 256 + p.val, by omega⟩ : Fin 4096) q := by
  unfold blockGate callGate
  simp only [h0, h1, h3, h4, h5]

include h0 h1 h2 h3 h4 h5 in
/-- What grid point T stores to the cell-state output at (p, q) is the call's cell-state result at (T·256 + p, q). -/
theorem block_cell (p : Fin 256) (q : Fin 1024) :
    k0_pay2 (F := Ideal) x0 x1 x3 x4 x5 x2 (ix2 p q)
      = callCell X H C WX WH B (ix2 (⟨T * 256 + p.val, by omega⟩ : Fin 4096) q) := by
  rw [cell_store_apply, block_gate X H WX WH B x0 x1 x3 x4 x5 T hT h0 h1 h3 h4 h5,
    block_gate X H WX WH B x0 x1 x3 x4 x5 T hT h0 h1 h3 h4 h5, block_gate X H WX WH B x0 x1 x3 x4 x5 T hT h0 h1 h3 h4 h5, h2]
  rfl

include h0 h1 h2 h3 h4 h5 in
/-- What grid point T stores to the hidden-state output at (p, q) is the call's hidden-state result at (T·256 + p, q). -/
theorem block_hidden (p : Fin 256) (q : Fin 1024) :
    k0_pay3 (F := Ideal) x0 x1 x3 x4 x5 x2 (ix2 p q)
      = callHidden X H C WX WH B (ix2 (⟨T * 256 + p.val, by omega⟩ : Fin 4096) q) := by
  rw [hidden_store_apply, block_gate X H WX WH B x0 x1 x3 x4 x5 T hT h0 h1 h3 h4 h5,
    block_gate X H WX WH B x0 x1 x3 x4 x5 T hT h0 h1 h3 h4 h5, block_gate X H WX WH B x0 x1 x3 x4 x5 T hT h0 h1 h3 h4 h5,
    block_gate X H WX WH B x0 x1 x3 x4 x5 T hT h0 h1 h3 h4 h5, h2]
  rfl

end Block

end Cert.KernelIdeal.Body

end
-- ==== Proof.Region0.lean ====
/-
  The first pallas_call's two result arrays after its grid has run, as functions of the arrays the call finds on entry.

  The grid has 16 points; point t works on rows t·256 … t·256 + 255 of the three batch arrays and of the two result
  arrays, and sees the two weight arrays and the bias row whole at every point. What point t writes back to a result
  window is therefore the call's function (callHidden / callCell) read on its own 256 rows; the 16 row ranges tile the
  4096 rows, so after the last point each result array IS that function of the entry arrays.
-/
import proofs.«113173_j23639499997827_2_alg».proof.Proof.Gen.KernelIdeal.Frame
import proofs.«113173_j23639499997827_2_alg».proof.Proof.BlockArray
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: every batch window and both result windows sit at block (t, 0) together, the
    weight and bias windows at block (0, 0), and the block row stays below 16. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_7.index t (0 : Fin 2) ∧ win0_6.index t (1 : Fin 2) = 0
    ∧ win0_7.index t (1 : Fin 2) = 0 ∧ win0_7.index t (0 : Fin 2) ≤ 15 :=
  (by decide +kernel : ∀ t : Fin grid0.N, _)

/-- Every block row below 16 is some point's. -/
theorem index_onto : ∀ q : Fin 16, ∃ t : Fin cfg0.N, win0_7.index t (0 : Fin 2) = q.val :=
  (by decide +kernel : ∀ q : Fin 16, ∃ t : Fin grid0.N, win0_7.index t (0 : Fin 2) = q.val)

/-- The first row of point t's blocks, counted in blocks. -/
def blockRow (t : Fin cfg0.N) : Nat := win0_7.index t (0 : Fin 2)

theorem blockRow_le (t : Fin cfg0.N) : blockRow t * 256 + 256 ≤ 4096 := by
  have := (index_facts t).2.2.2.2.2.2.2.2.2.2.2.2.2.2.2; unfold blockRow; omega

section Point

variable (c : Dev nD) (t : Fin cfg0.N)

/-- The input block's row p is row blockRow·256 + p of the input array. -/
theorem input_block (p : Fin 256) (k : Fin 1024) :
    iblk0 V c 0 t (ix2 p k) = V c main_arg0 (ix2 (⟨blockRow t * 256 + p.val, by have := blockRow_le t; omega⟩ : Fin 4096) k) := by
  obtain ⟨e00, e01, -⟩ := index_facts t
  show V c main_arg0 (((cfg0.win 0).blk t).view.emb (ix2 p k)) = _
  exact congrArg (V c main_arg0) (funext fun a => Fin.ext (match a with
    | ⟨0, _⟩ => by show win0_0.index t (0 : Fin 2) * 256 + 1 * p.val = win0_7.index t (0 : Fin 2) * 256 + p.val; omega
    | ⟨1, _⟩ => by show win0_0.index t (1 : Fin 2) * 1024 + 1 * k.val = k.val; omega))

/-- The hidden-state block's row p is row blockRow·256 + p of the hidden-state array. -/
theorem hidden_block (p : Fin 256) (k : Fin 1024) :
    iblk0 V c 1 t (ix2 p k) = V c main_arg2 (ix2 (⟨blockRow t * 256 + p.val, by have := blockRow_le t; omega⟩ : Fin 4096) k) := by
  obtain ⟨-, -, e10, e11, -⟩ := index_facts t
  show V c main_arg2 (((cfg0.win 1).blk t).view.emb (ix2 p k)) = _
  exact congrArg (V c main_arg2) (funext fun a => Fin.ext (match a with
    | ⟨0, _⟩ => by show win0_1.index t (0 : Fin 2) * 256 + 1 * p.val = win0_7.index t (0 : Fin 2) * 256 + p.val; omega
    | ⟨1, _⟩ => by show win0_1.index t (1 : Fin 2) * 1024 + 1 * k.val = k.val; omega))

/-- The cell-state block's row p is row blockRow·256 + p of the cell-state array. -/
theorem cell_block (p : Fin 256) (k : Fin 1024) :
    iblk0 V c 2 t (ix2 p k) = V c main_arg3 (ix2 (⟨blockRow t * 256 + p.val, by have := blockRow_le t; omega⟩ : Fin 4096) k) := by
  obtain ⟨-, -, -, -, e20, e21, -⟩ := index_facts t
  show V c main_arg3 (((cfg0.win 2).blk t).view.emb (ix2 p k)) = _
  exact congrArg (V c main_arg3) (funext fun a => Fin.ext (match a with
    | ⟨0, _⟩ => by show win0_2.index t (0 : Fin 2) * 256 + 1 * p.val = win0_7.index t (0 : Fin 2) * 256 + p.val; omega
    | ⟨1, _⟩ => by show win0_2.index t (1 : Fin 2) * 1024 + 1 * k.val = k.val; omega))

/-- The input-part weight window is its whole array at every point. -/
theorem weight_x_block (n : Fin 4096) (k : Fin 1024) : iblk0 V c 3 t (ix2 n k) = V c main_v2 (ix2 n k) := by
  obtain ⟨-, -, -, -, -, -, e30, e31, -⟩ := index_facts t
  show V c main_v2 (((cfg0.win 3).blk t).view.emb (ix2 n k)) = _
  exact congrArg (V c main_v2) (funext fun a => Fin.ext (match a with
    | ⟨0, _⟩ => by show win0_3.index t (0 : Fin 2) * 4096 + 1 * n.val = n.val; omega
    | ⟨1, _⟩ => by show win0_3.index t (1 : Fin 2) * 1024 + 1 * k.val = k.val; omega))

/-- The hidden-part weight window is its whole array at every point. -/
theorem weight_h_block (n : Fin 4096) (k : Fin 1024) : iblk0 V c 4 t (ix2 n k) = V c main_v5 (ix2 n k) := by
  obtain ⟨-, -, -, -, -, -, -, -, e40, e41, -⟩ := index_facts t
  show V c main_v5 (((cfg0.win 4).blk t).view.emb (ix2 n k)) = _
  exact congrArg (V c main_v5) (funext fun a => Fin.ext (match a with
    | ⟨0, _⟩ => by show win0_4.index t (0 : Fin 2) * 4096 + 1 * n.val = n.val; omega
    | ⟨1, _⟩ => by show win0_4.index t (1 : Fin 2) * 1024 + 1 * k.val = k.val; omega))

/-- The bias window is its whole row at every point. -/
theorem bias_block (n : Fin 4096) : iblk0 V c 5 t (ix2 (0 : Fin 1) n) = V c main_v12 (ix2 (0 : Fin 1) n) := by
  obtain ⟨-, -, -, -, -, -, -, -, -, -, e50, e51, -⟩ := index_facts t
  show V c main_v12 (((cfg0.win 5).blk t).view.emb (ix2 (0 : Fin 1) n)) = _
  exact congrArg (V c main_v12) (funext fun a => Fin.ext (match a with
    | ⟨0, _⟩ => by show win0_5.index t (0 : Fin 2) * 1 + 1 * 0 = 0; omega
    | ⟨1, _⟩ => by show win0_5.index t (1 : Fin 2) * 4096 + 1 * n.val = n.val; omega))

/-- WHAT POINT t WRITES BACK to the cell-state result is the call's cell-state function read on the point's rows. -/
theorem flushed_cell :
    (dat0 V c).flushed 7 t = ((cfg0.win 7).blk t).view.read (Elt Ideal)
      (callCell (V c main_arg0) (V c main_arg2) (V c main_arg3) (V c main_v2) (V c main_v5) (V c main_v12)) := by
  show (cfg0.win 7).cut (grid0.coords t) ((dat0 V c).after 7 t) = _
  rw [after0_7]
  unfold out0_7
  rw [View.canon_unit_zero origin]
  simp only [View.ld_unit_zero (S := S256x1024) origin, View.ld_unit_zero (S := S4096x1024) origin, View.ld_unit_zero (S := S1x4096) origin]
  obtain ⟨-, -, -, -, -, -, -, -, -, -, -, -, -, -, e71, -⟩ := index_facts t
  funext j
  have hj0 : (j 0).val < 256 := (j 0).isLt
  have hj1 : (j 1).val < 1024 := (j 1).isLt
  have hb := blockRow_le t
  show k0_pay2 (iblk0 V c 0 t) (iblk0 V c 1 t) (iblk0 V c 3 t) (iblk0 V c 4 t) (iblk0 V c 5 t) (iblk0 V c 2 t) j
    = callCell (V c main_arg0) (V c main_arg2) (V c main_arg3) (V c main_v2) (V c main_v5) (V c main_v12) (((cfg0.win 7).blk t).view.emb j)
  have ej : j = ix2 (⟨(j 0).val, hj0⟩ : Fin 256) (⟨(j 1).val, hj1⟩ : Fin 1024) :=
    funext fun a => match a with | ⟨0, _⟩ => rfl | ⟨1, _⟩ => rfl
  have ei : ((cfg0.win 7).blk t).view.emb j
      = ix2 (⟨blockRow t * 256 + (j 0).val, by omega⟩ : Fin 4096) (⟨(j 1).val, hj1⟩ : Fin 1024) := by
    funext a; apply Fin.ext
    match a with
    | ⟨0, _⟩ => show win0_7.index t (0 : Fin 2) * 256 + 1 * (j 0).val = win0_7.index t (0 : Fin 2) * 256 + (j 0).val; omega
    | ⟨1, _⟩ => show win0_7.index t (1 : Fin 2) * 1024 + 1 * (j 1).val = (j 1).val; omega
  rw [ei]
  refine (congrArg (k0_pay2 (iblk0 V c 0 t) (iblk0 V c 1 t) (iblk0 V c 3 t) (iblk0 V c 4 t) (iblk0 V c 5 t) (iblk0 V c 2 t)) ej).trans ?_
  exact block_cell (V c main_arg0) (V c main_arg2) (V c main_arg3) (V c main_v2) (V c main_v5) (V c main_v12)
    (iblk0 V c 0 t) (iblk0 V c 1 t) (iblk0 V c 2 t) (iblk0 V c 3 t) (iblk0 V c 4 t) (iblk0 V c 5 t)
    (blockRow t) hb (input_block V c t) (hidden_block V c t) (cell_block V c t) (weight_x_block V c t) (weight_h_block V c t)
    (bias_block V c t) ⟨(j 0).val, hj0⟩ ⟨(j 1).val, hj1⟩

/-- WHAT POINT t WRITES BACK to the hidden-state result is the call's hidden-state function read on the point's rows. -/
theorem flushed_hidden :
    (dat0 V c).flushed 6 t = ((cfg0.win 6).blk t).view.read (Elt Ideal)
      (callHidden (V c main_arg0) (V c main_arg2) (V c main_arg3) (V c main_v2) (V c main_v5) (V c main_v12)) := by
  show (cfg0.win 6).cut (grid0.coords t) ((dat0 V c).after 6 t) = _
  rw [after0_6]
  unfold out0_6
  rw [View.canon_unit_zero origin]
  simp only [View.ld_unit_zero (S := S256x1024) origin, View.ld_unit_zero (S := S4096x1024) origin, View.ld_unit_zero (S := S1x4096) origin]
  obtain ⟨-, -, -, -, -, -, -, -, -, -, -, -, e60, e61, -⟩ := index_facts t
  funext j
  have hj0 : (j 0).val < 256 := (j 0).isLt
  have hj1 : (j 1).val < 1024 := (j 1).isLt
  have hb := blockRow_le t
  show k0_pay3 (iblk0 V c 0 t) (iblk0 V c 1 t) (iblk0 V c 3 t) (iblk0 V c 4 t) (iblk0 V c 5 t) (iblk0 V c 2 t) j
    = callHidden (V c main_arg0) (V c main_arg2) (V c main_arg3) (V c main_v2) (V c main_v5) (V c main_v12) (((cfg0.win 6).blk t).view.emb j)
  have ej : j = ix2 (⟨(j 0).val, hj0⟩ : Fin 256) (⟨(j 1).val, hj1⟩ : Fin 1024) :=
    funext fun a => match a with | ⟨0, _⟩ => rfl | ⟨1, _⟩ => rfl
  have ei : ((cfg0.win 6).blk t).view.emb j
      = ix2 (⟨blockRow t * 256 + (j 0).val, by omega⟩ : Fin 4096) (⟨(j 1).val, hj1⟩ : Fin 1024) := by
    funext a; apply Fin.ext
    match a with
    | ⟨0, _⟩ => show win0_6.index t (0 : Fin 2) * 256 + 1 * (j 0).val = win0_7.index t (0 : Fin 2) * 256 + (j 0).val; omega
    | ⟨1, _⟩ => show win0_6.index t (1 : Fin 2) * 1024 + 1 * (j 1).val = (j 1).val; omega
  rw [ei]
  refine (congrArg (k0_pay3 (iblk0 V c 0 t) (iblk0 V c 1 t) (iblk0 V c 3 t) (iblk0 V c 4 t) (iblk0 V c 5 t) (iblk0 V c 2 t)) ej).trans ?_
  exact block_hidden (V c main_arg0) (V c main_arg2) (V c main_arg3) (V c main_v2) (V c main_v5) (V c main_v12)
    (iblk0 V c 0 t) (iblk0 V c 1 t) (iblk0 V c 2 t) (iblk0 V c 3 t) (iblk0 V c 4 t) (iblk0 V c 5 t)
    (blockRow t) hb (input_block V c t) (hidden_block V c t) (cell_block V c t) (weight_x_block V c t) (weight_h_block V c t)
    (bias_block V c t) ⟨(j 0).val, hj0⟩ ⟨(j 1).val, hj1⟩

end Point

/-- An index of the cell-state result is in point t's block iff each coordinate is in the block's range on its axis. -/
theorem mem_cell_block (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v14_1).slice (win0_7.rect t)).set ↔ _
  rw [View.set_slice_whole, Rect.mem_set_unit]
  exact Iff.rfl

theorem mem_hidden_block (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v14_0).slice (win0_6.rect t)).set ↔ _
  rw [View.set_slice_whole, Rect.mem_set_unit]
  exact Iff.rfl

/-- Every entry of the cell-state result is in the block of the point whose block row is the entry's row over 256. -/
theorem cover_cell (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ := index_onto ⟨(i 0).val / 256, by omega⟩
  have ht' : win0_7.index t (0 : Fin 2) = (i 0).val / 256 := ht
  obtain ⟨-, -, -, -, -, -, -, -, -, -, -, -, -, -, e71, -⟩ := index_facts t
  refine ⟨t, flush0_7 t, ?_⟩
  rw [mem_cell_block]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

theorem cover_hidden (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ := index_onto ⟨(i 0).val / 256, by omega⟩
  have ht' : win0_7.index t (0 : Fin 2) = (i 0).val / 256 := ht
  obtain ⟨-, -, -, -, -, -, -, -, -, -, -, -, e60, e61, -⟩ := index_facts t
  refine ⟨t, flush0_6 t, ?_⟩
  rw [mem_hidden_block]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE CELL-STATE RESULT after the grid: the call's cell-state function of the entry arrays. -/
theorem cell_array (c : Dev nD) :
    (dat0 V c).arrAt 7 cfg0.N = callCell (V c main_arg0) (V c main_arg2) (V c main_arg3) (V c main_v2) (V c main_v5) (V c main_v12) :=
  (dat0 V c).arrAt_eq_of_cover 7 _ (fun t _ => flushed_cell V c t) cover_cell

/-- THE HIDDEN-STATE RESULT after the grid: the call's hidden-state function of the entry arrays. -/
theorem hidden_array (c : Dev nD) :
    (dat0 V c).arrAt 6 cfg0.N = callHidden (V c main_arg0) (V c main_arg2) (V c main_arg3) (V c main_v2) (V c main_v5) (V c main_v12) :=
  (dat0 V c).arrAt_eq_of_cover 6 _ (fun t _ => flushed_hidden V c t) cover_hidden

end Cert.KernelIdeal.Region0

end
-- ==== Proof.Region1.lean ====
/-
  The second pallas_call's two result arrays after its grid has run, as functions of the arrays the call finds on entry.

  The grid has 16 points; point t works on rows t·256 … t·256 + 255 of the three batch arrays and of the two result
  arrays, and sees the two weight arrays and the bias row whole at every point. What point t writes back to a result
  window is therefore the call's function (callHidden / callCell) read on its own 256 rows; the 16 row ranges tile the
  4096 rows, so after the last point each result array IS that function of the entry arrays.
-/
import proofs.«113173_j23639499997827_2_alg».proof.Proof.Gen.KernelIdeal.Frame
import proofs.«113173_j23639499997827_2_alg».proof.Proof.BlockArray
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: every batch window and both result windows sit at block (t, 0) together, the
    weight and bias windows at block (0, 0), and the block row stays below 16. -/
theorem index_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = win1_7.index t (0 : Fin 2) ∧ win1_6.index t (1 : Fin 2) = 0
    ∧ win1_7.index t (1 : Fin 2) = 0 ∧ win1_7.index t (0 : Fin 2) ≤ 15 :=
  (by decide +kernel : ∀ t : Fin grid1.N, _)

/-- Every block row below 16 is some point's. -/
theorem index_onto : ∀ q : Fin 16, ∃ t : Fin cfg1.N, win1_7.index t (0 : Fin 2) = q.val :=
  (by decide +kernel : ∀ q : Fin 16, ∃ t : Fin grid1.N, win1_7.index t (0 : Fin 2) = q.val)

/-- The first row of point t's blocks, counted in blocks. -/
def blockRow (t : Fin cfg1.N) : Nat := win1_7.index t (0 : Fin 2)

theorem blockRow_le (t : Fin cfg1.N) : blockRow t * 256 + 256 ≤ 4096 := by
  have := (index_facts t).2.2.2.2.2.2.2.2.2.2.2.2.2.2.2; unfold blockRow; omega

section Point

variable (c : Dev nD) (t : Fin cfg1.N)

/-- The input block's row p is row blockRow·256 + p of the input array. -/
theorem input_block (p : Fin 256) (k : Fin 1024) :
    iblk1 V c 0 t (ix2 p k) = V c main_arg1 (ix2 (⟨blockRow t * 256 + p.val, by have := blockRow_le t; omega⟩ : Fin 4096) k) := by
  obtain ⟨e00, e01, -⟩ := index_facts t
  show V c main_arg1 (((cfg1.win 0).blk t).view.emb (ix2 p k)) = _
  exact congrArg (V c main_arg1) (funext fun a => Fin.ext (match a with
    | ⟨0, _⟩ => by show win1_0.index t (0 : Fin 2) * 256 + 1 * p.val = win1_7.index t (0 : Fin 2) * 256 + p.val; omega
    | ⟨1, _⟩ => by show win1_0.index t (1 : Fin 2) * 1024 + 1 * k.val = k.val; omega))

/-- The hidden-state block's row p is row blockRow·256 + p of the hidden-state array. -/
theorem hidden_block (p : Fin 256) (k : Fin 1024) :
    iblk1 V c 1 t (ix2 p k) = V c main_arg4 (ix2 (⟨blockRow t * 256 + p.val, by have := blockRow_le t; omega⟩ : Fin 4096) k) := by
  obtain ⟨-, -, e10, e11, -⟩ := index_facts t
  show V c main_arg4 (((cfg1.win 1).blk t).view.emb (ix2 p k)) = _
  exact congrArg (V c main_arg4) (funext fun a => Fin.ext (match a with
    | ⟨0, _⟩ => by show win1_1.index t (0 : Fin 2) * 256 + 1 * p.val = win1_7.index t (0 : Fin 2) * 256 + p.val; omega
    | ⟨1, _⟩ => by show win1_1.index t (1 : Fin 2) * 1024 + 1 * k.val = k.val; omega))

/-- The cell-state block's row p is row blockRow·256 + p of the cell-state array. -/
theorem cell_block (p : Fin 256) (k : Fin 1024) :
    iblk1 V c 2 t (ix2 p k) = V c main_arg5 (ix2 (⟨blockRow t * 256 + p.val, by have := blockRow_le t; omega⟩ : Fin 4096) k) := by
  obtain ⟨-, -, -, -, e20, e21, -⟩ := index_facts t
  show V c main_arg5 (((cfg1.win 2).blk t).view.emb (ix2 p k)) = _
  exact congrArg (V c main_arg5) (funext fun a => Fin.ext (match a with
    | ⟨0, _⟩ => by show win1_2.index t (0 : Fin 2) * 256 + 1 * p.val = win1_7.index t (0 : Fin 2) * 256 + p.val; omega
    | ⟨1, _⟩ => by show win1_2.index t (1 : Fin 2) * 1024 + 1 * k.val = k.val; omega))

/-- The input-part weight window is its whole array at every point. -/
theorem weight_x_block (n : Fin 4096) (k : Fin 1024) : iblk1 V c 3 t (ix2 n k) = V c main_v8 (ix2 n k) := by
  obtain ⟨-, -, -, -, -, -, e30, e31, -⟩ := index_facts t
  show V c main_v8 (((cfg1.win 3).blk t).view.emb (ix2 n k)) = _
  exact congrArg (V c main_v8) (funext fun a => Fin.ext (match a with
    | ⟨0, _⟩ => by show win1_3.index t (0 : Fin 2) * 4096 + 1 * n.val = n.val; omega
    | ⟨1, _⟩ => by show win1_3.index t (1 : Fin 2) * 1024 + 1 * k.val = k.val; omega))

/-- The hidden-part weight window is its whole array at every point. -/
theorem weight_h_block (n : Fin 4096) (k : Fin 1024) : iblk1 V c 4 t (ix2 n k) = V c main_v11 (ix2 n k) := by
  obtain ⟨-, -, -, -, -, -, -, -, e40, e41, -⟩ := index_facts t
  show V c main_v11 (((cfg1.win 4).blk t).view.emb (ix2 n k)) = _
  exact congrArg (V c main_v11) (funext fun a => Fin.ext (match a with
    | ⟨0, _⟩ => by show win1_4.index t (0 : Fin 2) * 4096 + 1 * n.val = n.val; omega
    | ⟨1, _⟩ => by show win1_4.index t (1 : Fin 2) * 1024 + 1 * k.val = k.val; omega))

/-- The bias window is its whole row at every point. -/
theorem bias_block (n : Fin 4096) : iblk1 V c 5 t (ix2 (0 : Fin 1) n) = V c main_v13 (ix2 (0 : Fin 1) n) := by
  obtain ⟨-, -, -, -, -, -, -, -, -, -, e50, e51, -⟩ := index_facts t
  show V c main_v13 (((cfg1.win 5).blk t).view.emb (ix2 (0 : Fin 1) n)) = _
  exact congrArg (V c main_v13) (funext fun a => Fin.ext (match a with
    | ⟨0, _⟩ => by show win1_5.index t (0 : Fin 2) * 1 + 1 * 0 = 0; omega
    | ⟨1, _⟩ => by show win1_5.index t (1 : Fin 2) * 4096 + 1 * n.val = n.val; omega))

/-- WHAT POINT t WRITES BACK to the cell-state result is the call's cell-state function read on the point's rows. -/
theorem flushed_cell :
    (dat1 V c).flushed 7 t = ((cfg1.win 7).blk t).view.read (Elt Ideal)
      (callCell (V c main_arg1) (V c main_arg4) (V c main_arg5) (V c main_v8) (V c main_v11) (V c main_v13)) := by
  show (cfg1.win 7).cut (grid1.coords t) ((dat1 V c).after 7 t) = _
  rw [after1_7]
  unfold out1_7
  rw [View.canon_unit_zero origin]
  simp only [View.ld_unit_zero (S := S256x1024) origin, View.ld_unit_zero (S := S4096x1024) origin, View.ld_unit_zero (S := S1x4096) origin]
  obtain ⟨-, -, -, -, -, -, -, -, -, -, -, -, -, -, e71, -⟩ := index_facts t
  funext j
  have hj0 : (j 0).val < 256 := (j 0).isLt
  have hj1 : (j 1).val < 1024 := (j 1).isLt
  have hb := blockRow_le t
  show k0_pay2 (iblk1 V c 0 t) (iblk1 V c 1 t) (iblk1 V c 3 t) (iblk1 V c 4 t) (iblk1 V c 5 t) (iblk1 V c 2 t) j
    = callCell (V c main_arg1) (V c main_arg4) (V c main_arg5) (V c main_v8) (V c main_v11) (V c main_v13) (((cfg1.win 7).blk t).view.emb j)
  have ej : j = ix2 (⟨(j 0).val, hj0⟩ : Fin 256) (⟨(j 1).val, hj1⟩ : Fin 1024) :=
    funext fun a => match a with | ⟨0, _⟩ => rfl | ⟨1, _⟩ => rfl
  have ei : ((cfg1.win 7).blk t).view.emb j
      = ix2 (⟨blockRow t * 256 + (j 0).val, by omega⟩ : Fin 4096) (⟨(j 1).val, hj1⟩ : Fin 1024) := by
    funext a; apply Fin.ext
    match a with
    | ⟨0, _⟩ => show win1_7.index t (0 : Fin 2) * 256 + 1 * (j 0).val = win1_7.index t (0 : Fin 2) * 256 + (j 0).val; omega
    | ⟨1, _⟩ => show win1_7.index t (1 : Fin 2) * 1024 + 1 * (j 1).val = (j 1).val; omega
  rw [ei]
  refine (congrArg (k0_pay2 (iblk1 V c 0 t) (iblk1 V c 1 t) (iblk1 V c 3 t) (iblk1 V c 4 t) (iblk1 V c 5 t) (iblk1 V c 2 t)) ej).trans ?_
  exact block_cell (V c main_arg1) (V c main_arg4) (V c main_arg5) (V c main_v8) (V c main_v11) (V c main_v13)
    (iblk1 V c 0 t) (iblk1 V c 1 t) (iblk1 V c 2 t) (iblk1 V c 3 t) (iblk1 V c 4 t) (iblk1 V c 5 t)
    (blockRow t) hb (input_block V c t) (hidden_block V c t) (cell_block V c t) (weight_x_block V c t) (weight_h_block V c t)
    (bias_block V c t) ⟨(j 0).val, hj0⟩ ⟨(j 1).val, hj1⟩

/-- WHAT POINT t WRITES BACK to the hidden-state result is the call's hidden-state function read on the point's rows. -/
theorem flushed_hidden :
    (dat1 V c).flushed 6 t = ((cfg1.win 6).blk t).view.read (Elt Ideal)
      (callHidden (V c main_arg1) (V c main_arg4) (V c main_arg5) (V c main_v8) (V c main_v11) (V c main_v13)) := by
  show (cfg1.win 6).cut (grid1.coords t) ((dat1 V c).after 6 t) = _
  rw [after1_6]
  unfold out1_6
  rw [View.canon_unit_zero origin]
  simp only [View.ld_unit_zero (S := S256x1024) origin, View.ld_unit_zero (S := S4096x1024) origin, View.ld_unit_zero (S := S1x4096) origin]
  obtain ⟨-, -, -, -, -, -, -, -, -, -, -, -, e60, e61, -⟩ := index_facts t
  funext j
  have hj0 : (j 0).val < 256 := (j 0).isLt
  have hj1 : (j 1).val < 1024 := (j 1).isLt
  have hb := blockRow_le t
  show k0_pay3 (iblk1 V c 0 t) (iblk1 V c 1 t) (iblk1 V c 3 t) (iblk1 V c 4 t) (iblk1 V c 5 t) (iblk1 V c 2 t) j
    = callHidden (V c main_arg1) (V c main_arg4) (V c main_arg5) (V c main_v8) (V c main_v11) (V c main_v13) (((cfg1.win 6).blk t).view.emb j)
  have ej : j = ix2 (⟨(j 0).val, hj0⟩ : Fin 256) (⟨(j 1).val, hj1⟩ : Fin 1024) :=
    funext fun a => match a with | ⟨0, _⟩ => rfl | ⟨1, _⟩ => rfl
  have ei : ((cfg1.win 6).blk t).view.emb j
      = ix2 (⟨blockRow t * 256 + (j 0).val, by omega⟩ : Fin 4096) (⟨(j 1).val, hj1⟩ : Fin 1024) := by
    funext a; apply Fin.ext
    match a with
    | ⟨0, _⟩ => show win1_6.index t (0 : Fin 2) * 256 + 1 * (j 0).val = win1_7.index t (0 : Fin 2) * 256 + (j 0).val; omega
    | ⟨1, _⟩ => show win1_6.index t (1 : Fin 2) * 1024 + 1 * (j 1).val = (j 1).val; omega
  rw [ei]
  refine (congrArg (k0_pay3 (iblk1 V c 0 t) (iblk1 V c 1 t) (iblk1 V c 3 t) (iblk1 V c 4 t) (iblk1 V c 5 t) (iblk1 V c 2 t)) ej).trans ?_
  exact block_hidden (V c main_arg1) (V c main_arg4) (V c main_arg5) (V c main_v8) (V c main_v11) (V c main_v13)
    (iblk1 V c 0 t) (iblk1 V c 1 t) (iblk1 V c 2 t) (iblk1 V c 3 t) (iblk1 V c 4 t) (iblk1 V c 5 t)
    (blockRow t) hb (input_block V c t) (hidden_block V c t) (cell_block V c t) (weight_x_block V c t) (weight_h_block V c t)
    (bias_block V c t) ⟨(j 0).val, hj0⟩ ⟨(j 1).val, hj1⟩

end Point

/-- An index of the cell-state result is in point t's block iff each coordinate is in the block's range on its axis. -/
theorem mem_cell_block (t : Fin cfg1.N) (i : S4096x1024.Idx) :
    i ∈ ((cfg1.win 7).blk t).view.set ↔ ∀ a : Fin 2, win1_7.index t a * S256x1024.size a ≤ (i a).val
      ∧ (i a).val < win1_7.index t a * S256x1024.size a + S256x1024.size a := by
  show i ∈ ((View.whole main_v15_1).slice (win1_7.rect t)).set ↔ _
  rw [View.set_slice_whole, Rect.mem_set_unit]
  exact Iff.rfl

theorem mem_hidden_block (t : Fin cfg1.N) (i : S4096x1024.Idx) :
    i ∈ ((cfg1.win 6).blk t).view.set ↔ ∀ a : Fin 2, win1_6.index t a * S256x1024.size a ≤ (i a).val
      ∧ (i a).val < win1_6.index t a * S256x1024.size a + S256x1024.size a := by
  show i ∈ ((View.whole main_v15_0).slice (win1_6.rect t)).set ↔ _
  rw [View.set_slice_whole, Rect.mem_set_unit]
  exact Iff.rfl

/-- Every entry of the cell-state result is in the block of the point whose block row is the entry's row over 256. -/
theorem cover_cell (i : S4096x1024.Idx) :
    ∃ t : Fin cfg1.N, (cfg1.win 7).flush t = true ∧ i ∈ ((cfg1.win 7).blk t).view.set := by
  have hi0 : (i 0).val < 4096 := (i 0).isLt
  have hi1 : (i 1).val < 1024 := (i 1).isLt
  obtain ⟨t, ht⟩ := index_onto ⟨(i 0).val / 256, by omega⟩
  have ht' : win1_7.index t (0 : Fin 2) = (i 0).val / 256 := ht
  obtain ⟨-, -, -, -, -, -, -, -, -, -, -, -, -, -, e71, -⟩ := index_facts t
  refine ⟨t, flush1_7 t, ?_⟩
  rw [mem_cell_block]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 1024 ≤ (i 1).val ∧ (i 1).val < win1_7.index t (1 : Fin 2) * 1024 + 1024; omega

theorem cover_hidden (i : S4096x1024.Idx) :
    ∃ t : Fin cfg1.N, (cfg1.win 6).flush t = true ∧ i ∈ ((cfg1.win 6).blk t).view.set := by
  have hi0 : (i 0).val < 4096 := (i 0).isLt
  have hi1 : (i 1).val < 1024 := (i 1).isLt
  obtain ⟨t, ht⟩ := index_onto ⟨(i 0).val / 256, by omega⟩
  have ht' : win1_7.index t (0 : Fin 2) = (i 0).val / 256 := ht
  obtain ⟨-, -, -, -, -, -, -, -, -, -, -, -, e60, e61, -⟩ := index_facts t
  refine ⟨t, flush1_6 t, ?_⟩
  rw [mem_hidden_block]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 1024 ≤ (i 1).val ∧ (i 1).val < win1_6.index t (1 : Fin 2) * 1024 + 1024; omega

/-- THE CELL-STATE RESULT after the grid: the call's cell-state function of the entry arrays. -/
theorem cell_array (c : Dev nD) :
    (dat1 V c).arrAt 7 cfg1.N = callCell (V c main_arg1) (V c main_arg4) (V c main_arg5) (V c main_v8) (V c main_v11) (V c main_v13) :=
  (dat1 V c).arrAt_eq_of_cover 7 _ (fun t _ => flushed_cell V c t) cover_cell

/-- THE HIDDEN-STATE RESULT after the grid: the call's hidden-state function of the entry arrays. -/
theorem hidden_array (c : Dev nD) :
    (dat1 V c).arrAt 6 cfg1.N = callHidden (V c main_arg1) (V c main_arg4) (V c main_arg5) (V c main_v8) (V c main_v11) (V c main_v13) :=
  (dat1 V c).arrAt_eq_of_cover 6 _ (fun t _ => flushed_hidden V c t) cover_hidden

end Cert.KernelIdeal.Region1

end
-- ==== Proof.CallIsCell.lean ====
/-
  A pallas_call's result functions are the specification's cell, once its weight and bias operands are the views of the
  stacked weights W [4, 1024, 2048] and of the bias b [4, 1024] that the host prepares.

  The host cuts W along its last axis into the input part (positions 0 … 1023) and the hidden part (1024 … 2047), merges
  the two leading axes of each part — gate g, hidden unit q becomes row g·1024 + q — and changes the float format, which
  is the identity on the extended reals. Row-major positions are kept by a reshape, so row g·1024 + q, column k of a part
  is W at (g, q, off + k), off the part's first position. The bias is reshaped to one row: column g·1024 + q is b(g, q).
  With these three readings the call's pre-activation in column g·1024 + q is the specification's gate g of unit q.
-/
import proofs.«113173_j23639499997827_2_alg».proof.Proof.BlockArray
import Idealize.ShloMosaic.Lib.Pipeline.Value

noncomputable section

namespace Cert.KernelIdeal.Body

open Idealize.ShloMosaic Idealize.ShloMosaic.ValueIdx Cert.KernelIdeal Cert.Cell

/-- A prepared weight part at (g·1024 + q, k) is W at (g, q, off + k). -/
theorem weight_part_apply (W : FVec Ideal S4x1024x2048 .f32) (off : Nat)
    (hs : S4x1024x2048.Slices ![0, 0, off] S4x1024x1024) (hc : S4x1024x1024.ShapeCasts S4096x1024)
    (hb : FTy.bits .bf16 < FTy.bits .f32) (g : Fin 4) (q k : Fin 1024) (kk : Fin 2048) (hkk : kk.val = off + k.val) :
    (truncf .bf16 (shapeCast S4096x1024 (extractStridedSlice S4x1024x1024 ![0, 0, off] W hs) hc) hb : FVec Ideal S4096x1024 .bf16)
        (ix2 (⟨g.val * 1024 + q.val, by have := g.isLt; have := q.isLt; omega⟩ : Fin 4096) k) = W (ix3 g q kk) := by
  show shapeCast S4096x1024 (extractStridedSlice S4x1024x1024 ![0, 0, off] W hs) hc
    (ix2 (⟨g.val * 1024 + q.val, by have := g.isLt; have := q.isLt; omega⟩ : Fin 4096) k) = _
  refine (shapeCast_apply _ hc _ (ix3 g q k) ?_).trans ?_
  · rewrite [Shape.rowMajor_val_three, Shape.rowMajor_val_two]
    show (g.val * 1024 + q.val) * 1024 + k.val = (g.val * 1024 + q.val) * 1024 + k.val
    rfl
  · exact extractStridedSlice_apply ![0, 0, off] W hs (ix3 g q k) (ix3 g q kk) (fun a => match a with
      | ⟨0, _⟩ => by show g.val = 0 + g.val; omega
      | ⟨1, _⟩ => by show q.val = 0 + q.val; omega
      | ⟨2, _⟩ => by show kk.val = off + k.val; exact hkk)

/-- The bias as one row, at column g·1024 + q, is b at (g, q). -/
theorem bias_row_apply (b : FVec Ideal S4x1024 .f32) (hc : S4x1024.ShapeCasts S1x4096) (g : Fin 4) (q : Fin 1024) :
    shapeCast S1x4096 b hc (ix2 (0 : Fin 1) (⟨g.val * 1024 + q.val, by have := g.isLt; have := q.isLt; omega⟩ : Fin 4096))
      = b (ix2 g q) := by
  refine shapeCast_apply b hc _ (ix2 g q) ?_
  rewrite [Shape.rowMajor_val_two, Shape.rowMajor_val_two]
  show g.val * 1024 + q.val = 0 * 4096 + (g.val * 1024 + q.val)
  omega

section

variable (X H C : FVec Ideal S4096x1024 .f32) (WX WH : FVec Ideal S4096x1024 .bf16) (B : FVec Ideal S1x4096 .f32)
  (W : FVec Ideal S4x1024x2048 .f32) (b : FVec Ideal S4x1024 .f32)
  (hwx : ∀ (g : Fin 4) (q k : Fin 1024),
    WX (ix2 (⟨g.val * 1024 + q.val, by have := g.isLt; have := q.isLt; omega⟩ : Fin 4096) k) = W (ix3 g q (⟨k.val, by omega⟩ : Fin 2048)))
  (hwh : ∀ (g : Fin 4) (q k : Fin 1024),
    WH (ix2 (⟨g.val * 1024 + q.val, by have := g.isLt; have := q.isLt; omega⟩ : Fin 4096) k) = W (ix3 g q (⟨1024 + k.val, by omega⟩ : Fin 2048)))
  (hbias : ∀ (g : Fin 4) (q : Fin 1024),
    B (ix2 (0 : Fin 1) (⟨g.val * 1024 + q.val, by have := g.isLt; have := q.isLt; omega⟩ : Fin 4096)) = b (ix2 g q))

include hwx hwh hbias in
/-- The call's pre-activation in column g·1024 + q of row r is the specification's gate g at row r, unit q. -/
theorem callGate_eq_gate (g : Fin 4) (off : Nat) (hoff : off + 1024 ≤ 4096) (hg : off = g.val * 1024) (r : Fin 4096) (q : Fin 1024) :
    callGate X H WX WH B off hoff r q = gate X H W b g r q := by
  subst hg
  unfold callGate gate
  simp only [hwx, hwh, hbias]

include hwx hwh hbias in
theorem callCell_eq : callCell X H C WX WH B = newCell X H C W b := by
  funext i
  unfold callCell newCell
  rw [callGate_eq_gate X H WX WH B W b hwx hwh hbias 0 0 (by omega) (by decide) (i 0) (i 1),
    callGate_eq_gate X H WX WH B W b hwx hwh hbias 1 1024 (by omega) (by decide) (i 0) (i 1),
    callGate_eq_gate X H WX WH B W b hwx hwh hbias 3 3072 (by omega) (by decide) (i 0) (i 1)]

include hwx hwh hbias in
theorem callHidden_eq : callHidden X H C WX WH B = newHidden X H C W b := by
  funext i
  unfold callHidden newHidden
  rw [callGate_eq_gate X H WX WH B W b hwx hwh hbias 2 2048 (by omega) (by decide) (i 0) (i 1),
    callCell_eq X H C WX WH B W b hwx hwh hbias]

end

end Cert.KernelIdeal.Body

end
-- ==== Proof.KernelValue.lean ====
/-
  The idealized kernel's four results are the specification's cell of the argument arrays.

  The last boundary's contents at a result buffer are what its pallas_call's grid leaves there, a function of the arrays
  the call finds on entry (the two Region modules). The first call is entered right after the host stretch, the second
  after the first call, which writes none of the second's operands — so both calls find their batch operands as launched
  and their weight and bias operands as the host stretch left them: the two halves of the stacked weights with the
  leading axes merged, and the bias as one row. With those readings each call's function is the specification's cell.
-/
import proofs.«113173_j23639499997827_2_alg».proof.Proof.KernelRun
import proofs.«113173_j23639499997827_2_alg».proof.Proof.Region0
import proofs.«113173_j23639499997827_2_alg».proof.Proof.Region1
import proofs.«113173_j23639499997827_2_alg».proof.Proof.CallIsCell
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.Body Cert.Cell

variable (m : (ℓ : Loc nD τ sig) → Buf (Elt Ideal) ℓ) (ρ : Dev nD → PrngReg) (c : Dev nD)

/-! ## The host stretch: what each call operand holds after it -/

theorem host_arg0 : W1 m ρ c (Proc.devRef .tc main_arg0) = m ((c : Thread nD τ).loc main_arg0) := by
  dsimp only [W1, hostOps0]; after_results
theorem host_arg1 : W1 m ρ c (Proc.devRef .tc main_arg1) = m ((c : Thread nD τ).loc main_arg1) := by
  dsimp only [W1, hostOps0]; after_results
theorem host_arg2 : W1 m ρ c (Proc.devRef .tc main_arg2) = m ((c : Thread nD τ).loc main_arg2) := by
  dsimp only [W1, hostOps0]; after_results
theorem host_arg3 : W1 m ρ c (Proc.devRef .tc main_arg3) = m ((c : Thread nD τ).loc main_arg3) := by
  dsimp only [W1, hostOps0]; after_results
theorem host_arg4 : W1 m ρ c (Proc.devRef .tc main_arg4) = m ((c : Thread nD τ).loc main_arg4) := by
  dsimp only [W1, hostOps0]; after_results
theorem host_arg5 : W1 m ρ c (Proc.devRef .tc main_arg5) = m ((c : Thread nD τ).loc main_arg5) := by
  dsimp only [W1, hostOps0]; after_results

/-- The input part of the forward weights, rows merged. -/
theorem host_v2 : (W1 m ρ c (Proc.devRef .tc main_v2) : S4096x1024.Idx → EReal)
    = truncf (F := Ideal) .bf16 (shapeCast S4096x1024 (extractStridedSlice S4x1024x1024 ![0, 0, 0] (m ((c : Thread nD τ).loc main_arg6))
        slices_S4x1024x2048_S4x1024x1024_0_0_0) shapeCasts_S4x1024x1024_S4096x1024) bitsLt_bf16_f32 := by
  dsimp only [W1, hostOps0]; after_results; rfl
/-- The hidden part of the forward weights, rows merged. -/
theorem host_v5 : (W1 m ρ c (Proc.devRef .tc main_v5) : S4096x1024.Idx → EReal)
    = truncf (F := Ideal) .bf16 (shapeCast S4096x1024 (extractStridedSlice S4x1024x1024 ![0, 0, 1024] (m ((c : Thread nD τ).loc main_arg6))
        slices_S4x1024x2048_S4x1024x1024_0_0_1024) shapeCasts_S4x1024x1024_S4096x1024) bitsLt_bf16_f32 := by
  dsimp only [W1, hostOps0]; after_results; rfl
/-- The input part of the backward weights, rows merged. -/
theorem host_v8 : (W1 m ρ c (Proc.devRef .tc main_v8) : S4096x1024.Idx → EReal)
    = truncf (F := Ideal) .bf16 (shapeCast S4096x1024 (extractStridedSlice S4x1024x1024 ![0, 0, 0] (m ((c : Thread nD τ).loc main_arg8))
        slices_S4x1024x2048_S4x1024x1024_0_0_0) shapeCasts_S4x1024x1024_S4096x1024) bitsLt_bf16_f32 := by
  dsimp only [W1, hostOps0]; after_results; rfl
/-- The hidden part of the backward weights, rows merged. -/
theorem host_v11 : (W1 m ρ c (Proc.devRef .tc main_v11) : S4096x1024.Idx → EReal)
    = truncf (F := Ideal) .bf16 (shapeCast S4096x1024 (extractStridedSlice S4x1024x1024 ![0, 0, 1024] (m ((c : Thread nD τ).loc main_arg8))
        slices_S4x1024x2048_S4x1024x1024_0_0_1024) shapeCasts_S4x1024x1024_S4096x1024) bitsLt_bf16_f32 := by
  dsimp only [W1, hostOps0]; after_results; rfl
/-- The forward bias as one row. -/
theorem host_v12 : (W1 m ρ c (Proc.devRef .tc main_v12) : S1x4096.Idx → EReal)
    = shapeCast S1x4096 (m ((c : Thread nD τ).loc main_arg7)) shapeCasts_S4x1024_S1x4096 := by
  dsimp only [W1, hostOps0]; after_results; rfl
/-- The backward bias as one row. -/
theorem host_v13 : (W1 m ρ c (Proc.devRef .tc main_v13) : S1x4096.Idx → EReal)
    = shapeCast S1x4096 (m ((c : Thread nD τ).loc main_arg9)) shapeCasts_S4x1024_S1x4096 := by
  dsimp only [W1, hostOps0]; after_results; rfl

/-! ## The launch contents of the arguments, as arrays -/

abbrev inputF : FVec Ideal S4096x1024 .f32 := m ((c : Thread nD τ).loc main_arg0)
abbrev inputB : FVec Ideal S4096x1024 .f32 := m ((c : Thread nD τ).loc main_arg1)
abbrev hiddenF : FVec Ideal S4096x1024 .f32 := m ((c : Thread nD τ).loc main_arg2)
abbrev cellF : FVec Ideal S4096x1024 .f32 := m ((c : Thread nD τ).loc main_arg3)
abbrev hiddenB : FVec Ideal S4096x1024 .f32 := m ((c : Thread nD τ).loc main_arg4)
abbrev cellB : FVec Ideal S4096x1024 .f32 := m ((c : Thread nD τ).loc main_arg5)
abbrev weightF : FVec Ideal S4x1024x2048 .f32 := m ((c : Thread nD τ).loc main_arg6)
abbrev biasF : FVec Ideal S4x1024 .f32 := m ((c : Thread nD τ).loc main_arg7)
abbrev weightB : FVec Ideal S4x1024x2048 .f32 := m ((c : Thread nD τ).loc main_arg8)
abbrev biasB : FVec Ideal S4x1024 .f32 := m ((c : Thread nD τ).loc main_arg9)

/-! ## The prepared operands read at an entry -/

theorem fwd_wx (g : Fin 4) (q k : Fin 1024) :
    (W1 m ρ c (Proc.devRef .tc main_v2) : S4096x1024.Idx → EReal)
        (ix2 (⟨g.val * 1024 + q.val, by have := g.isLt; have := q.isLt; omega⟩ : Fin 4096) k)
      = weightF m c (ix3 g q (⟨k.val, by omega⟩ : Fin 2048)) := by
  rw [host_v2]; exact weight_part_apply _ 0 _ _ _ g q k _ (Nat.zero_add _).symm

theorem fwd_wh (g : Fin 4) (q k : Fin 1024) :
    (W1 m ρ c (Proc.devRef .tc main_v5) : S4096x1024.Idx → EReal)
        (ix2 (⟨g.val * 1024 + q.val, by have := g.isLt; have := q.isLt; omega⟩ : Fin 4096) k)
      = weightF m c (ix3 g q (⟨1024 + k.val, by omega⟩ : Fin 2048)) := by
  rw [host_v5]; exact weight_part_apply _ 1024 _ _ _ g q k _ rfl

theorem fwd_b (g : Fin 4) (q : Fin 1024) :
    (W1 m ρ c (Proc.devRef .tc main_v12) : S1x4096.Idx → EReal)
        (ix2 (0 : Fin 1) (⟨g.val * 1024 + q.val, by have := g.isLt; have := q.isLt; omega⟩ : Fin 4096))
      = biasF m c (ix2 g q) := by
  rw [host_v12]; exact bias_row_apply _ _ g q

theorem bwd_wx (g : Fin 4) (q k : Fin 1024) :
    (W1 m ρ c (Proc.devRef .tc main_v8) : S4096x1024.Idx → EReal)
        (ix2 (⟨g.val * 1024 + q.val, by have := g.isLt; have := q.isLt; omega⟩ : Fin 4096) k)
      = weightB m c (ix3 g q (⟨k.val, by omega⟩ : Fin 2048)) := by
  rw [host_v8]; exact weight_part_apply _ 0 _ _ _ g q k _ (Nat.zero_add _).symm

theorem bwd_wh (g : Fin 4) (q k : Fin 1024) :
    (W1 m ρ c (Proc.devRef .tc main_v11) : S4096x1024.Idx → EReal)
        (ix2 (⟨g.val * 1024 + q.val, by have := g.isLt; have := q.isLt; omega⟩ : Fin 4096) k)
      = weightB m c (ix3 g q (⟨1024 + k.val, by omega⟩ : Fin 2048)) := by
  rw [host_v11]; exact weight_part_apply _ 1024 _ _ _ g q k _ rfl

theorem bwd_b (g : Fin 4) (q : Fin 1024) :
    (W1 m ρ c (Proc.devRef .tc main_v13) : S1x4096.Idx → EReal)
        (ix2 (0 : Fin 1) (⟨g.val * 1024 + q.val, by have := g.isLt; have := q.isLt; omega⟩ : Fin 4096))
      = biasB m c (ix2 g q) := by
  rw [host_v13]; exact bias_row_apply _ _ g q

/-! ## The four results -/

/-- The forward direction's new cell state. -/
theorem cell_forward : (W3 m ρ c (Proc.devRef .tc main_v14_1) : S4096x1024.Idx → EReal)
    = newCell (inputF m c) (hiddenF m c) (cellF m c) (weightF m c) (biasF m c) := by
  refine (W3_of_ne m ρ c main_v14_1 (by decide)).trans ((W2_arr m ρ c 7).trans ((Region0.cell_array (V1 m ρ) c).trans ?_))
  show callCell (W1 m ρ c (Proc.devRef .tc main_arg0)) (W1 m ρ c (Proc.devRef .tc main_arg2)) (W1 m ρ c (Proc.devRef .tc main_arg3))
    (W1 m ρ c (Proc.devRef .tc main_v2)) (W1 m ρ c (Proc.devRef .tc main_v5)) (W1 m ρ c (Proc.devRef .tc main_v12)) = _
  rw [host_arg0, host_arg2, host_arg3]
  exact callCell_eq _ _ _ _ _ _ _ _ (fwd_wx m ρ c) (fwd_wh m ρ c) (fwd_b m ρ c)

/-- The forward direction's new hidden state. -/
theorem hidden_forward : (W3 m ρ c (Proc.devRef .tc main_v14_0) : S4096x1024.Idx → EReal)
    = newHidden (inputF m c) (hiddenF m c) (cellF m c) (weightF m c) (biasF m c) := by
  refine (W3_of_ne m ρ c main_v14_0 (by decide)).trans ((W2_arr m ρ c 6).trans ((Region0.hidden_array (V1 m ρ) c).trans ?_))
  show callHidden (W1 m ρ c (Proc.devRef .tc main_arg0)) (W1 m ρ c (Proc.devRef .tc main_arg2)) (W1 m ρ c (Proc.devRef .tc main_arg3))
    (W1 m ρ c (Proc.devRef .tc main_v2)) (W1 m ρ c (Proc.devRef .tc main_v5)) (W1 m ρ c (Proc.devRef .tc main_v12)) = _
  rw [host_arg0, host_arg2, host_arg3]
  exact callHidden_eq _ _ _ _ _ _ _ _ (fwd_wx m ρ c) (fwd_wh m ρ c) (fwd_b m ρ c)

/-- The backward direction's new cell state. -/
theorem cell_backward : (W3 m ρ c (Proc.devRef .tc main_v15_1) : S4096x1024.Idx → EReal)
    = newCell (inputB m c) (hiddenB m c) (cellB m c) (weightB m c) (biasB m c) := by
  refine (W3_arr m ρ c 7).trans ((Region1.cell_array (V2 m ρ) c).trans ?_)
  show callCell (W2 m ρ c (Proc.devRef .tc main_arg1)) (W2 m ρ c (Proc.devRef .tc main_arg4)) (W2 m ρ c (Proc.devRef .tc main_arg5))
    (W2 m ρ c (Proc.devRef .tc main_v8)) (W2 m ρ c (Proc.devRef .tc main_v11)) (W2 m ρ c (Proc.devRef .tc main_v13)) = _
  rw [W2_of_ne m ρ c main_arg1 (by decide), W2_of_ne m ρ c main_arg4 (by decide), W2_of_ne m ρ c main_arg5 (by decide),
    W2_of_ne m ρ c main_v8 (by decide), W2_of_ne m ρ c main_v11 (by decide), W2_of_ne m ρ c main_v13 (by decide),
    host_arg1, host_arg4, host_arg5]
  exact callCell_eq _ _ _ _ _ _ _ _ (bwd_wx m ρ c) (bwd_wh m ρ c) (bwd_b m ρ c)

/-- The backward direction's new hidden state. -/
theorem hidden_backward : (W3 m ρ c (Proc.devRef .tc main_v15_0) : S4096x1024.Idx → EReal)
    = newHidden (inputB m c) (hiddenB m c) (cellB m c) (weightB m c) (biasB m c) := by
  refine (W3_arr m ρ c 6).trans ((Region1.hidden_array (V2 m ρ) c).trans ?_)
  show callHidden (W2 m ρ c (Proc.devRef .tc main_arg1)) (W2 m ρ c (Proc.devRef .tc main_arg4)) (W2 m ρ c (Proc.devRef .tc main_arg5))
    (W2 m ρ c (Proc.devRef .tc main_v8)) (W2 m ρ c (Proc.devRef .tc main_v11)) (W2 m ρ c (Proc.devRef .tc main_v13)) = _
  rw [W2_of_ne m ρ c main_arg1 (by decide), W2_of_ne m ρ c main_arg4 (by decide), W2_of_ne m ρ c main_arg5 (by decide),
    W2_of_ne m ρ c main_v8 (by decide), W2_of_ne m ρ c main_v11 (by decide), W2_of_ne m ρ c main_v13 (by decide),
    host_arg1, host_arg4, host_arg5]
  exact callHidden_eq _ _ _ _ _ _ _ _ (bwd_wx m ρ c) (bwd_wh m ρ c) (bwd_b m ρ c)

end Cert.KernelIdeal.Result

end
-- ==== Proof.LibHalfSums.lean ====
/-
  A finite sum over `2 K` positions, one half of whose terms vanish.

  A sum over `Fin (K + K)` is the sum of its first `K` terms plus the sum of its last `K` terms. When the last
  `K` terms are all zero the sum is the sum of the first `K` (`sum_eq_first_half`), and when the first `K` are all
  zero it is the sum of the last `K` (`sum_eq_second_half`). This is what a row of a product with a block-diagonal
  matrix `diag (W, W)` comes to: against a column of the left block only the first half of the row contributes,
  against a column of the right block only the second half.

  Stated in any commutative additive monoid, and for an index type `Fin n` with `n = K + K` given as an equation, so
  that it applies to a literal extent (`Fin 256` with `K = 128`) without rewriting the type. The positions are
  written by their values: the first half at `d`, the second at `K + d`.
-/
import Mathlib.Algebra.BigOperators.Fin

namespace Cert.LibHalfSums

variable {M : Type*} [AddCommMonoid M] {K n : ℕ}

/-- A sum over `2 K` positions is the sum over the first `K` plus the sum over the last `K`. -/
theorem sum_halves (h : n = K + K) (f : Fin n → M) :
    ∑ k, f k = ∑ d : Fin K, f ⟨d.val, by omega⟩ + ∑ d : Fin K, f ⟨K + d.val, by omega⟩ := by
  subst h
  exact Fin.sum_univ_add f

/-- When the last `K` terms vanish, the sum is the sum of the first `K`. -/
theorem sum_eq_first_half (h : n = K + K) (f : Fin n → M) (g : Fin K → M)
    (hfirst : ∀ d : Fin K, f ⟨d.val, by omega⟩ = g d) (hsecond : ∀ d : Fin K, f ⟨K + d.val, by omega⟩ = 0) :
    ∑ k, f k = ∑ d, g d := by
  rw [sum_halves h f, Finset.sum_congr rfl fun d _ => hfirst d, Finset.sum_congr rfl fun d _ => hsecond d,
    Finset.sum_const_zero, add_zero]

/-- When the first `K` terms vanish, the sum is the sum of the last `K`. -/
theorem sum_eq_second_half (h : n = K + K) (f : Fin n → M) (g : Fin K → M)
    (hfirst : ∀ d : Fin K, f ⟨d.val, by omega⟩ = 0) (hsecond : ∀ d : Fin K, f ⟨K + d.val, by omega⟩ = g d) :
    ∑ k, f k = ∑ d, g d := by
  rw [sum_halves h f, Finset.sum_congr rfl fun d _ => hfirst d, Finset.sum_congr rfl fun d _ => hsecond d,
    Finset.sum_const_zero, zero_add]

end Cert.LibHalfSums
-- ==== Proof.RefValue.lean ====
/-
  The reference's four results are the LSTM cell of the specification, entry by entry, on the extended reals.

  The reference joins a batch row of the input and of the hidden state into one row of 2048, contracts it against the
  whole 2048-long weight row of gate g and hidden unit j, and adds the bias. A sum over 2048 positions is the sum of its
  first 1024 terms plus the sum of its last 1024; in the first half the joined row is the input row, in the second the
  hidden row: that is the specification's pre-activation, input part against the first half of the weight row, hidden
  part against the second half — an identity of sums in a commutative monoid, which holds at the infinities too.
  The reference spells the logistic function as 1 / (1 + exp(-a)), which is the logistic function of the extended reals
  by definition, the float word of 1.0 being the number one. Gate g of the [4096, 4, 1024] pre-activations is cut out
  by a slice at position g of the middle axis and a reshape that drops that axis.
  The second direction's operations are, name for name, the first direction's, on its own arguments.
-/
import proofs.«113173_j23639499997827_2_alg».proof.Proof.Gen.ReferenceIdeal.Read
import proofs.«113173_j23639499997827_2_alg».proof.Proof.LibHalfSums
import proofs.«113173_j23639499997827_2_alg».proof.Proof.CellSpec
import Idealize.ShloMosaic.Lib.IdealHost
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read Cert.Cell

/-- The three kinds of argument array, as the reference's stages take them. -/
abbrev Batch : Type := (⟨S4096x1024, .f32⟩ : BufTy).Contents (Elt Ideal)
abbrev Weight : Type := (⟨S4x1024x2048, .f32⟩ : BufTy).Contents (Elt Ideal)
abbrev Bias : Type := (⟨S4x1024, .f32⟩ : BufTy).Contents (Elt Ideal)

/-- In its first 1024 positions a joined row is the input row. -/
theorem joined_first (x h : Batch) (r : Fin 4096) (d : Fin 1024) :
    val_main_v0 (F := Ideal) x h (ix2 r (⟨d.val, by omega⟩ : Fin 2048)) = x (ix2 r d) := by
  unfold val_main_v0
  exact concatenate_pair_apply_left (t := S4096x2048) (s₁ := S4096x1024) (s₂ := S4096x1024) (1 : Fin 2) x h
    concatenates_S4096x1024_S4096x1024_S4096x2048_d1 (ix2 r (⟨d.val, by omega⟩ : Fin 2048)) rfl (ix2 r d)
    (fun b => match b with | ⟨0, _⟩ => rfl | ⟨1, _⟩ => rfl)

/-- In its last 1024 positions a joined row is the hidden row. -/
theorem joined_second (x h : Batch) (r : Fin 4096) (d : Fin 1024) :
    val_main_v0 (F := Ideal) x h (ix2 r (⟨1024 + d.val, by omega⟩ : Fin 2048)) = h (ix2 r d) := by
  unfold val_main_v0
  exact concatenate_pair_apply_right (t := S4096x2048) (s₁ := S4096x1024) (s₂ := S4096x1024) (1 : Fin 2) x h
    concatenates_S4096x1024_S4096x1024_S4096x2048_d1 (ix2 r (⟨1024 + d.val, by omega⟩ : Fin 2048)) rfl rfl (ix2 r d)
    (fun b hb => match b, hb with | ⟨0, _⟩, _ => rfl | ⟨1, _⟩, hb => absurd rfl hb)
    (by show d.val + 1024 = 1024 + d.val; omega)

theorem left_index (r : Fin 4096) (g : Fin 4) (j : Fin 1024) (k : Fin 2048) : lidx_main_v1 (ix3 r g j) k = ix2 r k :=
  funext fun a => match a with | ⟨0, _⟩ => rfl | ⟨1, _⟩ => rfl

theorem right_index (r : Fin 4096) (g : Fin 4) (j : Fin 1024) (k : Fin 2048) : ridx_main_v1 (ix3 r g j) k = ix3 g j k :=
  funext fun a => match a with | ⟨0, _⟩ => rfl | ⟨1, _⟩ => rfl | ⟨2, _⟩ => rfl

/-- The reference's pre-activation array at (r, g, j) is the specification's gate g at row r, hidden unit j. -/
theorem preact_eq (x h : Batch) (W : Weight) (b : Bias) (r : Fin 4096) (g : Fin 4) (j : Fin 1024) :
    val_main_v4 (F := Ideal) x h W b (ix3 r g j) = gate x h W b g r j := by
  rw [val_main_v4_apply, val_main_v1_apply, val_main_v3_apply, val_main_v2_apply]
  unfold gate preact
  rw [Cert.LibHalfSums.sum_halves (K := 1024) rfl]
  refine congrArg₂ (· + ·) (congrArg₂ (· + ·) (Finset.sum_congr rfl fun d _ => ?_) (Finset.sum_congr rfl fun d _ => ?_)) ?_
  · rw [left_index, right_index, joined_first]
  · rw [left_index, right_index, joined_second]
  · exact congrArg b (funext fun a => match a with | ⟨0, _⟩ => rfl | ⟨1, _⟩ => rfl)

/-- Where a [4096, 1024] entry sits in the [4096, 4, 1024] array once gate g is cut out: row and unit kept, g between. -/
theorem gate_index (i : S4096x1024.Idx) (g : Fin 4) (k : S4096x4x1024.Idx)
    (h0 : (k 0).val = ((i 0).val * 1024 + (i 1).val) / 1024) (h1 : (k 1).val = g.val)
    (h2 : (k 2).val = ((i 0).val * 1024 + (i 1).val) % 1024) : k = ix3 (i 0) g (i 1) := by
  have b1 : (i 1).val < 1024 := (i 1).isLt
  funext a; apply Fin.ext
  match a with
  | ⟨0, _⟩ => show (k 0).val = (i 0).val; omega
  | ⟨1, _⟩ => exact h1
  | ⟨2, _⟩ => show (k 2).val = (i 1).val; omega

theorem gate0_eq (x h : Batch) (W : Weight) (b : Bias) (i : S4096x1024.Idx) :
    val_main_v6 (F := Ideal) x h W b i = gate x h W b 0 (i 0) (i 1) := by
  rw [val_main_v6_apply, val_main_v5_apply, gate_index i 0 (idx_main_v5 (idx_main_v6 i)) rfl rfl rfl]
  exact preact_eq x h W b (i 0) 0 (i 1)

theorem gate1_eq (x h : Batch) (W : Weight) (b : Bias) (i : S4096x1024.Idx) :
    val_main_v14 (F := Ideal) x h W b i = gate x h W b 1 (i 0) (i 1) := by
  rw [val_main_v14_apply, val_main_v13_apply, gate_index i 1 (idx_main_v13 (idx_main_v14 i)) rfl rfl rfl]
  exact preact_eq x h W b (i 0) 1 (i 1)

theorem gate2_eq (x h : Batch) (W : Weight) (b : Bias) (i : S4096x1024.Idx) :
    val_main_v22 (F := Ideal) x h W b i = gate x h W b 2 (i 0) (i 1) := by
  rw [val_main_v22_apply, val_main_v21_apply, gate_index i 2 (idx_main_v21 (idx_main_v22 i)) rfl rfl rfl]
  exact preact_eq x h W b (i 0) 2 (i 1)

theorem gate3_eq (x h : Batch) (W : Weight) (b : Bias) (i : S4096x1024.Idx) :
    val_main_v30 (F := Ideal) x h W b i = gate x h W b 3 (i 0) (i 1) := by
  rw [val_main_v30_apply, val_main_v29_apply, gate_index i 3 (idx_main_v29 (idx_main_v30 i)) rfl rfl rfl]
  exact preact_eq x h W b (i 0) 3 (i 1)

/-- One over one plus exp of minus a, with the float word of 1.0 for each one, is the logistic function. -/
theorem sigmoid_eq (a : EReal) :
    Ideal.div (Ideal.ofBits .f32 0x3F800000#32) (Ideal.ofBits .f32 0x3F800000#32 + Ideal.exp (-a)) = Ideal.logistic a := by
  rw [Ideal.ofBits_one_f32]; rfl

theorem forget_eq (x h : Batch) (W : Weight) (b : Bias) (i : S4096x1024.Idx) :
    val_main_v12 (F := Ideal) x h W b i = Ideal.logistic (gate x h W b 0 (i 0) (i 1)) := by
  rw [val_main_v12_apply, val_main_v11_apply, val_main_cst_0_apply, val_main_v10_apply, val_main_v9_apply, val_main_cst_apply,
    val_main_v8_apply, val_main_v7_apply, gate0_eq]
  exact sigmoid_eq _

theorem input_eq (x h : Batch) (W : Weight) (b : Bias) (i : S4096x1024.Idx) :
    val_main_v20 (F := Ideal) x h W b i = Ideal.logistic (gate x h W b 1 (i 0) (i 1)) := by
  rw [val_main_v20_apply, val_main_v19_apply, val_main_cst_2_apply, val_main_v18_apply, val_main_v17_apply, val_main_cst_1_apply,
    val_main_v16_apply, val_main_v15_apply, gate1_eq]
  exact sigmoid_eq _

theorem output_eq (x h : Batch) (W : Weight) (b : Bias) (i : S4096x1024.Idx) :
    val_main_v28 (F := Ideal) x h W b i = Ideal.logistic (gate x h W b 2 (i 0) (i 1)) := by
  rw [val_main_v28_apply, val_main_v27_apply, val_main_cst_4_apply, val_main_v26_apply, val_main_v25_apply, val_main_cst_3_apply,
    val_main_v24_apply, val_main_v23_apply, gate2_eq]
  exact sigmoid_eq _

/-- The reference's new cell state is the specification's. -/
theorem cell_eq (x h c : Batch) (W : Weight) (b : Bias) : val_main_v34 (F := Ideal) x h c W b = newCell x h c W b := by
  funext i
  rw [val_main_v34_apply, val_main_v32_apply, val_main_v33_apply, val_main_v31_apply, forget_eq, input_eq, gate3_eq]
  rfl

/-- The reference's new hidden state is the specification's. -/
theorem hidden_eq (x h c : Batch) (W : Weight) (b : Bias) : val_main_v36 (F := Ideal) x h c W b = newHidden x h c W b := by
  funext i
  rw [val_main_v36_apply, val_main_v35_apply, output_eq, cell_eq]
  rfl

/-- The second direction's stages are the first direction's, on the second direction's arguments. -/
theorem second_cell (x h c : Batch) (W : Weight) (b : Bias) :
    val_main_v71 (F := Ideal) x h c W b = val_main_v34 (F := Ideal) x h c W b := rfl
theorem second_hidden (x h c : Batch) (W : Weight) (b : Bias) :
    val_main_v73 (F := Ideal) x h c W b = val_main_v36 (F := Ideal) x h c W b := rfl

end Cert.ReferenceIdeal.RefValue

end
-- ==== Proof.lean ====
/-
  A bidirectional LSTM step: the kernel and its reference compute the same four arrays on the extended reals.

  Each direction is one LSTM cell step on a batch of 4096 rows with 1024 inputs and 1024 hidden units. For a batch row r
  and hidden unit j, gate g has the pre-activation
      a_g(r, j) = ∑ over the 2048 positions of the joined row [x(r, ·), h(r, ·)] against the weight row W(g, j, ·), plus b(g, j),
  and the step returns h' = σ(a_2) · tanh(c') and c' = σ(a_0) · c + σ(a_1) · tanh(a_3), σ the logistic function.

  The reference contracts the joined row against the whole weight row. The kernel cuts the weight rows into their input
  half and hidden half on the host, runs one pallas_call per direction over 16 blocks of 256 batch rows, and in each block
  adds the input rows' product with the first half to the hidden rows' product with the second half. The two agree because
  a sum over 2048 positions is the sum of its first 1024 terms plus the sum of its last 1024 — a law of commutative monoids,
  true at the infinities, so no finiteness of the inputs is used. The kernel's logistic operation and the reference's
  1 / (1 + exp(-a)) are one function of the extended reals by definition, and the changes of float format in the kernel are
  the identity there. The ideal pass rewrote no operation, so the kernel's idealization is its own text read on the
  extended reals.

  The modules: CellSpec states the cell; RefValue reads the reference's generated run as the cell; BodyValue, BlockArray,
  Region0 / Region1, CallIsCell and KernelValue read the kernel's run — a grid point's stored block, the whole result arrays
  after the grid, the host-prepared operands — as the same cell; KernelRun names the result buffers at the end of the run.
-/
import proofs.«113173_j23639499997827_2_alg».proof.Defs
import proofs.«113173_j23639499997827_2_alg».proof.Proof.Gen.Kernel
import proofs.«113173_j23639499997827_2_alg».proof.Proof.Gen.Kernel.Skeleton
import proofs.«113173_j23639499997827_2_alg».proof.Proof.Gen.Kernel.Launch
import proofs.«113173_j23639499997827_2_alg».proof.Proof.Gen.Kernel.Points
import proofs.«113173_j23639499997827_2_alg».proof.Proof.Gen.Kernel.Frame
import proofs.«113173_j23639499997827_2_alg».proof.Proof.Gen.KernelIdeal
import proofs.«113173_j23639499997827_2_alg».proof.Proof.Gen.KernelIdeal.Skeleton
import proofs.«113173_j23639499997827_2_alg».proof.Proof.Gen.KernelIdeal.Launch
import proofs.«113173_j23639499997827_2_alg».proof.Proof.Gen.KernelIdeal.Points
import proofs.«113173_j23639499997827_2_alg».proof.Proof.Gen.KernelIdeal.Frame
import proofs.«113173_j23639499997827_2_alg».proof.Proof.Gen.ReferenceIdeal
import proofs.«113173_j23639499997827_2_alg».proof.Proof.Gen.Pre_finite_inputs
import proofs.«113173_j23639499997827_2_alg».proof.Proof.Gen.ReferenceIdeal.Run
import proofs.«113173_j23639499997827_2_alg».proof.Proof.Gen.ReferenceIdeal.Read
import proofs.«113173_j23639499997827_2_alg».proof.Proof.KernelValue
import proofs.«113173_j23639499997827_2_alg».proof.Proof.RefValue
import Idealize.ShloMosaic.Adequacy
import Idealize.ShloMosaic.Init

noncomputable section

namespace Cert.Proof

open Idealize.ShloMosaic Idealize.SL.Sem Cert.Cell

/-- The kernel as printed runs, faults nowhere and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing: there is nothing to preserve. -/
theorem preserves : Cert.preserves_Kernel_KernelIdeal := trivial

/-- From memories that agree on the ten arguments, the kernel and the reference both end with the new hidden and cell
    states of the two directions: the specification's cell of the arguments. -/
theorem algebraic : Cert.algebraic_KernelIdeal_ReferenceIdeal := by
  intro m ρ m' ρ' _ hagree
  refine ⟨fun c => newHidden (Cert.KernelIdeal.Result.inputF m c) (Cert.KernelIdeal.Result.hiddenF m c)
            (Cert.KernelIdeal.Result.cellF m c) (Cert.KernelIdeal.Result.weightF m c) (Cert.KernelIdeal.Result.biasF m c),
          fun c => newCell (Cert.KernelIdeal.Result.inputF m c) (Cert.KernelIdeal.Result.hiddenF m c)
            (Cert.KernelIdeal.Result.cellF m c) (Cert.KernelIdeal.Result.weightF m c) (Cert.KernelIdeal.Result.biasF m c),
          fun c => newHidden (Cert.KernelIdeal.Result.inputB m c) (Cert.KernelIdeal.Result.hiddenB m c)
            (Cert.KernelIdeal.Result.cellB m c) (Cert.KernelIdeal.Result.weightB m c) (Cert.KernelIdeal.Result.biasB m c),
          fun c => newCell (Cert.KernelIdeal.Result.inputB m c) (Cert.KernelIdeal.Result.hiddenB m c)
            (Cert.KernelIdeal.Result.cellB m c) (Cert.KernelIdeal.Result.weightB m c) (Cert.KernelIdeal.Result.biasB m c),
          ?_, ?_⟩
  · refine (θ_run Cert.KernelIdeal.defs _ _).mono (fun r h c => ?_) (Cert.KernelIdeal.Run.results (F := Ideal) m ρ)
    obtain ⟨h0, h1, h2, h3, hargs⟩ := h c
    exact ⟨h0.trans (Cert.KernelIdeal.Result.hidden_forward m ρ c), h1.trans (Cert.KernelIdeal.Result.cell_forward m ρ c),
      h2.trans (Cert.KernelIdeal.Result.hidden_backward m ρ c), h3.trans (Cert.KernelIdeal.Result.cell_backward m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨a0, a1, a2, a3, a4, a5, a6, a7, a8, a9⟩ := hagree c
    refine ⟨?_, ?_, ?_, ?_, hargs⟩
    · rw [h0, Cert.ReferenceIdeal.Read.val_main_v36_eq, Cert.ReferenceIdeal.RefValue.hidden_eq, a0, a2, a3, a6, a7]
    · rw [h1, Cert.ReferenceIdeal.Read.val_main_v34_eq, Cert.ReferenceIdeal.RefValue.cell_eq, a0, a2, a3, a6, a7]
    · rw [h2, Cert.ReferenceIdeal.Read.val_main_v73_eq, Cert.ReferenceIdeal.RefValue.second_hidden,
        Cert.ReferenceIdeal.RefValue.hidden_eq, a1, a4, a5, a8, a9]
    · rw [h3, Cert.ReferenceIdeal.Read.val_main_v71_eq, Cert.ReferenceIdeal.RefValue.second_cell,
        Cert.ReferenceIdeal.RefValue.cell_eq, a1, a4, a5, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
